-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x40 : Shape := ⟨2, ![2097152, 40]⟩
abbrev S40x100 : Shape := ⟨2, ![40, 100]⟩
abbrev S_ : Shape := ⟨0, ![]⟩

class Facts : Prop where
  bcast_S_S2097152x40 : S_.BroadcastsInDim S2097152x40 (![] : Fin 0 → Fin S2097152x40.rank)
  reducesTo_S2097152x40_S_d0_1 : S2097152x40.ReducesTo [0, 1] S_
  h_S_ : 0 < S_.numel
  bcast_S_S40x100 : S_.BroadcastsInDim S40x100 (![] : Fin 0 → Fin S40x100.rank)
  reducesTo_S40x100_S_d0_1 : S40x100.ReducesTo [0, 1] S_

variable [Facts]

def fn {F : FTy → Type} [FloatOps F] (main_arg0 : FVec F S2097152x40 .f32) (main_arg1 : FVec F S2097152x40 .f32) (main_arg2 : FVec F S40x100 .f32) : IVec S_ 1 :=
  let main_v0 : FVec F S2097152x40 .f32 := Host.absf main_arg0
  let main_cst : FVec F S_ .f32 := constant S_ .f32 0x7F800000#32
  let main_v1 : FVec F S2097152x40 .f32 := broadcastInDim S2097152x40 ![] bcast_S_S2097152x40 main_cst
  let main_v2 : IVec S2097152x40 1 := cmpf .olt main_v0 main_v1
  let main_c : IVec S_ 1 := constantI S_ 1 1#1
  let main_v3 : IVec S_ 1 := (fun x v => Host.reduce IntOp.andi x v reducesTo_S2097152x40_S_d0_1 h_S_) main_v2 main_c
  let main_v4 : FVec F S2097152x40 .f32 := Host.absf main_arg1
  let main_cst_0 : FVec F S_ .f32 := constant S_ .f32 0x7F800000#32
  let main_v5 : FVec F S2097152x40 .f32 := broadcastInDim S2097152x40 ![] bcast_S_S2097152x40 main_cst_0
  let main_v6 : IVec S2097152x40 1 := cmpf .olt main_v4 main_v5
  let main_c_1 : IVec S_ 1 := constantI S_ 1 1#1
  let main_v7 : IVec S_ 1 := (fun x v => Host.reduce IntOp.andi x v reducesTo_S2097152x40_S_d0_1 h_S_) main_v6 main_c_1
  let main_v8 : IVec S_ 1 := andi main_v3 main_v7
  let main_v9 : FVec F S40x100 .f32 := Host.absf main_arg2
  let main_cst_2 : FVec F S_ .f32 := constant S_ .f32 0x7F800000#32
  let main_v10 : FVec F S40x100 .f32 := broadcastInDim S40x100 ![] bcast_S_S40x100 main_cst_2
  let main_v11 : IVec S40x100 1 := cmpf .olt main_v9 main_v10
  let main_c_3 : IVec S_ 1 := constantI S_ 1 1#1
  let main_v12 : IVec S_ 1 := (fun x v => Host.reduce IntOp.andi x v reducesTo_S40x100_S_d0_1 h_S_) main_v11 main_c_3
  let main_v13 : IVec S_ 1 := andi main_v8 main_v12
  main_v13
-- ==== Kernel.lean ====
abbrev S2097152x40 : Shape := ⟨2, ![2097152, 40]⟩
abbrev S40x100 : Shape := ⟨2, ![40, 100]⟩
abbrev S100x40 : Shape := ⟨2, ![100, 40]⟩
abbrev S1x1 : Shape := ⟨2, ![1, 1]⟩
abbrev S8192x40 : Shape := ⟨2, ![8192, 40]⟩
abbrev S40 : Shape := ⟨1, ![40]⟩
abbrev S1x40 : Shape := ⟨2, ![1, 40]⟩
abbrev S8192 : Shape := ⟨1, ![8192]⟩
abbrev S8192x1 : Shape := ⟨2, ![8192, 1]⟩
abbrev S1 : Shape := ⟨1, ![1]⟩
abbrev S_ : Shape := ⟨0, ![]⟩

abbrev nBuf : Space → Nat
  | .hbm => 22
  | .vmem => 13
  | .smem => 0
  | _ => 0

abbrev bufTy : (tb : Table) → Fin (tcTables nBuf tb) → BufTy
  | .hbm, ⟨0, _⟩ => ⟨S2097152x40, .f32⟩
  | .hbm, ⟨1, _⟩ => ⟨S2097152x40, .f32⟩
  | .hbm, ⟨2, _⟩ => ⟨S40x100, .f32⟩
  | .hbm, ⟨3, _⟩ => ⟨S100x40, .f32⟩
  | .hbm, ⟨4, _⟩ => ⟨S1x1, .f32⟩
  | .hbm, ⟨5, _⟩ => ⟨S100x40, .f32⟩
  | .hbm, ⟨6, _⟩ => ⟨S_, .f32⟩
  | .hbm, ⟨7, _⟩ => ⟨S100x40, .f32⟩
  | .hbm, ⟨8, _⟩ => ⟨S100x40, .i1⟩
  | .hbm, ⟨9, _⟩ => ⟨S_, .f32⟩
  | .hbm, ⟨10, _⟩ => ⟨S100x40, .f32⟩
  | .hbm, ⟨11, _⟩ => ⟨S100x40, .f32⟩
  | .hbm, ⟨12, _⟩ => ⟨S_, .f32⟩
  | .hbm, ⟨13, _⟩ => ⟨S100x40, .f32⟩
  | .hbm, ⟨14, _⟩ => ⟨S100x40, .f32⟩
  | .hbm, ⟨15, _⟩ => ⟨S100x40, .f32⟩
  | .hbm, ⟨16, _⟩ => ⟨S100x40, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S2097152x40, .f32⟩
  | .hbm, ⟨21, _⟩ => ⟨S40x100, .f32⟩
  | .local _ .vmem, ⟨0, _⟩ => ⟨S8192x40, .f32⟩
  | .local _ .vmem, ⟨1, _⟩ => ⟨S8192x40, .f32⟩
  | .local _ .vmem, ⟨2, _⟩ => ⟨S8192x40, .f32⟩
  | .local _ .vmem, ⟨3, _⟩ => ⟨S8192x40, .f32⟩
  | .local _ .vmem, ⟨4, _⟩ => ⟨S100x40, .f32⟩
  | .local _ .vmem, ⟨5, _⟩ => ⟨S1x1, .f32⟩
  | .local _ .vmem, ⟨6, _⟩ => ⟨S8192x40, .f32⟩
  | .local _ .vmem, ⟨7, _⟩ => ⟨S8192x40, .f32⟩
  | .local _ .vmem, ⟨8, _⟩ => ⟨S8192x40, .f32⟩
  | .local _ .vmem, ⟨9, _⟩ => ⟨S8192x40, .f32⟩
  | .local _ .vmem, ⟨10, _⟩ => ⟨S100x40, .f32⟩
  | .local _ .vmem, ⟨11, _⟩ => ⟨S8192x40, .f32⟩
  | .local _ .vmem, ⟨12, _⟩ => ⟨S8192x40, .f32⟩
  | _, _ => ⟨S2097152x40, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x40 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x40 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S100x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![256], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x40 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x40 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S100x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8192x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S100x40_S100x40_0_0 : ∀ a, (![0, 0] : Fin 2 → Nat) a + S100x40.size a ≤ S100x40.size a
  h_S100x40 : 0 < S100x40.numel
  inb_S1x1_S1x1_0_0 : ∀ a, (![0, 0] : Fin 2 → Nat) a + S1x1.size a ≤ S1x1.size a
  h_S1x1 : 0 < S1x1.numel
  inb_S8192x40_S8192x40_0_0 : ∀ a, (![0, 0] : Fin 2 → Nat) a + S8192x40.size a ≤ S8192x40.size a
  h_S8192x40 : 0 < S8192x40.numel
  iota_S100x40_d0_w32 : S100x40.Iotas .tc 32 [0]
  natLt_1_32 : 1 < 32
  reduces_S8192x40_S40 : S8192x40.Reduces [0] S40
  shapeCasts_S40_S1x40 : S40.ShapeCasts S1x40
  shapeCasts_S1x40_S1x40 : S1x40.ShapeCasts S1x40
  broadcasts_S1x40_S100x40 : S1x40.Broadcasts S100x40
  shapeCasts_S100x40_S100x40 : S100x40.ShapeCasts S100x40
  reduces_S8192x40_S8192 : S8192x40.Reduces [1] S8192
  shapeCasts_S8192_S8192x1 : S8192.ShapeCasts S8192x1
  reduces_S8192x1_S1 : S8192x1.Reduces [0] S1
  shapeCasts_S1_S1x1 : S1.ShapeCasts S1x1
  shapeCasts_S1x1_S1x1 : S1x1.ShapeCasts S1x1
  transposes_S40x100_S100x40_1_0 : S40x100.Transposes [1, 0] S100x40
  bcast_S_S100x40 : S_.BroadcastsInDim S100x40 (![] : Fin 0 → Fin S100x40.rank)
  shapeCasts_S1x1_S_ : S1x1.ShapeCasts S_
  slices_S100x40_o0_0_S1x40 : S100x40.Slices ![0, 0] S1x40
  shapeCasts_S1x40_S40 : S1x40.ShapeCasts S40
  broadcasts_S1x40_S8192x40 : S1x40.Broadcasts S8192x40
  slices_S100x40_o1_0_S1x40 : S100x40.Slices ![1, 0] S1x40
  slices_S100x40_o2_0_S1x40 : S100x40.Slices ![2, 0] S1x40
  slices_S100x40_o3_0_S1x40 : S100x40.Slices ![3, 0] S1x40
  slices_S100x40_o4_0_S1x40 : S100x40.Slices ![4, 0] S1x40
  slices_S100x40_o5_0_S1x40 : S100x40.Slices ![5, 0] S1x40
  slices_S100x40_o6_0_S1x40 : S100x40.Slices ![6, 0] S1x40
  slices_S100x40_o7_0_S1x40 : S100x40.Slices ![7, 0] S1x40
  slices_S100x40_o8_0_S1x40 : S100x40.Slices ![8, 0] S1x40
  slices_S100x40_o9_0_S1x40 : S100x40.Slices ![9, 0] S1x40
  slices_S100x40_o10_0_S1x40 : S100x40.Slices ![10, 0] S1x40
  slices_S100x40_o11_0_S1x40 : S100x40.Slices ![11, 0] S1x40
  slices_S100x40_o12_0_S1x40 : S100x40.Slices ![12, 0] S1x40
  slices_S100x40_o13_0_S1x40 : S100x40.Slices ![13, 0] S1x40
  slices_S100x40_o14_0_S1x40 : S100x40.Slices ![14, 0] S1x40
  slices_S100x40_o15_0_S1x40 : S100x40.Slices ![15, 0] S1x40
  slices_S100x40_o16_0_S1x40 : S100x40.Slices ![16, 0] S1x40
  slices_S100x40_o17_0_S1x40 : S100x40.Slices ![17, 0] S1x40
  slices_S100x40_o18_0_S1x40 : S100x40.Slices ![18, 0] S1x40
  slices_S100x40_o19_0_S1x40 : S100x40.Slices ![19, 0] S1x40
  slices_S100x40_o20_0_S1x40 : S100x40.Slices ![20, 0] S1x40
  slices_S100x40_o21_0_S1x40 : S100x40.Slices ![21, 0] S1x40
  slices_S100x40_o22_0_S1x40 : S100x40.Slices ![22, 0] S1x40
  slices_S100x40_o23_0_S1x40 : S100x40.Slices ![23, 0] S1x40
  slices_S100x40_o24_0_S1x40 : S100x40.Slices ![24, 0] S1x40
  slices_S100x40_o25_0_S1x40 : S100x40.Slices ![25, 0] S1x40
  slices_S100x40_o26_0_S1x40 : S100x40.Slices ![26, 0] S1x40
  slices_S100x40_o27_0_S1x40 : S100x40.Slices ![27, 0] S1x40
  slices_S100x40_o28_0_S1x40 : S100x40.Slices ![28, 0] S1x40
  slices_S100x40_o29_0_S1x40 : S100x40.Slices ![29, 0] S1x40
  slices_S100x40_o30_0_S1x40 : S100x40.Slices ![30, 0] S1x40
  slices_S100x40_o31_0_S1x40 : S100x40.Slices ![31, 0] S1x40
  slices_S100x40_o32_0_S1x40 : S100x40.Slices ![32, 0] S1x40
  slices_S100x40_o33_0_S1x40 : S100x40.Slices ![33, 0] S1x40
  slices_S100x40_o34_0_S1x40 : S100x40.Slices ![34, 0] S1x40
  slices_S100x40_o35_0_S1x40 : S100x40.Slices ![35, 0] S1x40
  slices_S100x40_o36_0_S1x40 : S100x40.Slices ![36, 0] S1x40
  slices_S100x40_o37_0_S1x40 : S100x40.Slices ![37, 0] S1x40
  slices_S100x40_o38_0_S1x40 : S100x40.Slices ![38, 0] S1x40
  slices_S100x40_o39_0_S1x40 : S100x40.Slices ![39, 0] S1x40
  slices_S100x40_o40_0_S1x40 : S100x40.Slices ![40, 0] S1x40
  slices_S100x40_o41_0_S1x40 : S100x40.Slices ![41, 0] S1x40
  slices_S100x40_o42_0_S1x40 : S100x40.Slices ![42, 0] S1x40
  slices_S100x40_o43_0_S1x40 : S100x40.Slices ![43, 0] S1x40
  slices_S100x40_o44_0_S1x40 : S100x40.Slices ![44, 0] S1x40
  slices_S100x40_o45_0_S1x40 : S100x40.Slices ![45, 0] S1x40
  slices_S100x40_o46_0_S1x40 : S100x40.Slices ![46, 0] S1x40
  slices_S100x40_o47_0_S1x40 : S100x40.Slices ![47, 0] S1x40
  slices_S100x40_o48_0_S1x40 : S100x40.Slices ![48, 0] S1x40
  slices_S100x40_o49_0_S1x40 : S100x40.Slices ![49, 0] S1x40
  slices_S100x40_o50_0_S1x40 : S100x40.Slices ![50, 0] S1x40
  slices_S100x40_o51_0_S1x40 : S100x40.Slices ![51, 0] S1x40
  slices_S100x40_o52_0_S1x40 : S100x40.Slices ![52, 0] S1x40
  slices_S100x40_o53_0_S1x40 : S100x40.Slices ![53, 0] S1x40
  slices_S100x40_o54_0_S1x40 : S100x40.Slices ![54, 0] S1x40
  slices_S100x40_o55_0_S1x40 : S100x40.Slices ![55, 0] S1x40
  slices_S100x40_o56_0_S1x40 : S100x40.Slices ![56, 0] S1x40
  slices_S100x40_o57_0_S1x40 : S100x40.Slices ![57, 0] S1x40
  slices_S100x40_o58_0_S1x40 : S100x40.Slices ![58, 0] S1x40
  slices_S100x40_o59_0_S1x40 : S100x40.Slices ![59, 0] S1x40
  slices_S100x40_o60_0_S1x40 : S100x40.Slices ![60, 0] S1x40
  slices_S100x40_o61_0_S1x40 : S100x40.Slices ![61, 0] S1x40
  slices_S100x40_o62_0_S1x40 : S100x40.Slices ![62, 0] S1x40
  slices_S100x40_o63_0_S1x40 : S100x40.Slices ![63, 0] S1x40
  slices_S100x40_o64_0_S1x40 : S100x40.Slices ![64, 0] S1x40
  slices_S100x40_o65_0_S1x40 : S100x40.Slices ![65, 0] S1x40
  slices_S100x40_o66_0_S1x40 : S100x40.Slices ![66, 0] S1x40
  slices_S100x40_o67_0_S1x40 : S100x40.Slices ![67, 0] S1x40
  slices_S100x40_o68_0_S1x40 : S100x40.Slices ![68, 0] S1x40
  slices_S100x40_o69_0_S1x40 : S100x40.Slices ![69, 0] S1x40
  slices_S100x40_o70_0_S1x40 : S100x40.Slices ![70, 0] S1x40
  slices_S100x40_o71_0_S1x40 : S100x40.Slices ![71, 0] S1x40
  slices_S100x40_o72_0_S1x40 : S100x40.Slices ![72, 0] S1x40
  slices_S100x40_o73_0_S1x40 : S100x40.Slices ![73, 0] S1x40
  slices_S100x40_o74_0_S1x40 : S100x40.Slices ![74, 0] S1x40
  slices_S100x40_o75_0_S1x40 : S100x40.Slices ![75, 0] S1x40
  slices_S100x40_o76_0_S1x40 : S100x40.Slices ![76, 0] S1x40
  slices_S100x40_o77_0_S1x40 : S100x40.Slices ![77, 0] S1x40
  slices_S100x40_o78_0_S1x40 : S100x40.Slices ![78, 0] S1x40
  slices_S100x40_o79_0_S1x40 : S100x40.Slices ![79, 0] S1x40
  slices_S100x40_o80_0_S1x40 : S100x40.Slices ![80, 0] S1x40
  slices_S100x40_o81_0_S1x40 : S100x40.Slices ![81, 0] S1x40
  slices_S100x40_o82_0_S1x40 : S100x40.Slices ![82, 0] S1x40
  slices_S100x40_o83_0_S1x40 : S100x40.Slices ![83, 0] S1x40
  slices_S100x40_o84_0_S1x40 : S100x40.Slices ![84, 0] S1x40
  slices_S100x40_o85_0_S1x40 : S100x40.Slices ![85, 0] S1x40
  slices_S100x40_o86_0_S1x40 : S100x40.Slices ![86, 0] S1x40
  slices_S100x40_o87_0_S1x40 : S100x40.Slices ![87, 0] S1x40
  slices_S100x40_o88_0_S1x40 : S100x40.Slices ![88, 0] S1x40
  slices_S100x40_o89_0_S1x40 : S100x40.Slices ![89, 0] S1x40
  slices_S100x40_o90_0_S1x40 : S100x40.Slices ![90, 0] S1x40
  slices_S100x40_o91_0_S1x40 : S100x40.Slices ![91, 0] S1x40
  slices_S100x40_o92_0_S1x40 : S100x40.Slices ![92, 0] S1x40
  slices_S100x40_o93_0_S1x40 : S100x40.Slices ![93, 0] S1x40
  slices_S100x40_o94_0_S1x40 : S100x40.Slices ![94, 0] S1x40
  slices_S100x40_o95_0_S1x40 : S100x40.Slices ![95, 0] S1x40
  slices_S100x40_o96_0_S1x40 : S100x40.Slices ![96, 0] S1x40
  slices_S100x40_o97_0_S1x40 : S100x40.Slices ![97, 0] S1x40
  slices_S100x40_o98_0_S1x40 : S100x40.Slices ![98, 0] S1x40
  slices_S100x40_o99_0_S1x40 : S100x40.Slices ![99, 0] S1x40
  transposes_S100x40_S40x100_1_0 : S100x40.Transposes [1, 0] S40x100
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x40.size a ≤ S2097152x40.size a
  hwx0_0 : ∀ i : grid0.Coords, EltTy.bits .f32 = 32 ∨ (Rect.block (s := S2097152x40) S8192x40.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x40.size a ≤ S2097152x40.size a
  hwx0_1 : ∀ i : grid0.Coords, EltTy.bits .f32 = 32 ∨ (Rect.block (s := S2097152x40) S8192x40.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S100x40.size a ≤ S100x40.size a
  hwx0_2 : ∀ i : grid0.Coords, EltTy.bits .f32 = 32 ∨ (Rect.block (s := S100x40) S100x40.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x40.size a ≤ S2097152x40.size a
  hwx1_0 : ∀ i : grid1.Coords, EltTy.bits .f32 = 32 ∨ (Rect.block (s := S2097152x40) S8192x40.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x40.size a ≤ S2097152x40.size a
  hwx1_1 : ∀ i : grid1.Coords, EltTy.bits .f32 = 32 ∨ (Rect.block (s := S2097152x40) S8192x40.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S100x40.size a ≤ S100x40.size a
  hwx1_2 : ∀ i : grid1.Coords, EltTy.bits .f32 = 32 ∨ (Rect.block (s := S100x40) S100x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8192x40.size a ≤ S2097152x40.size a
  hwx1_3 : ∀ i : grid1.Coords, EltTy.bits .f32 = 32 ∨ (Rect.block (s := S2097152x40) S8192x40.size (cc1_transform_3 i) (hinb1_3 i)).WholeWords (EltTy.packing .f32)

variable [Facts₀]

abbrev win0_0 : Pipeline.Window sig grid0 :=
  Pipeline.Window.ofSpec (Memref.whole main_arg0) S8192x40.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x40.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S100x40.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S8192x40.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S8192x40.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S100x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S8192x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2097152x40 : Shape := ⟨2, ![2097152, 40]⟩
abbrev S40x100 : Shape := ⟨2, ![40, 100]⟩
abbrev S_ : Shape := ⟨0, ![]⟩
abbrev S40 : Shape := ⟨1, ![40]⟩
abbrev S1x40 : Shape := ⟨2, ![1, 40]⟩
abbrev S83886080 : Shape := ⟨1, ![83886080]⟩
abbrev S4000 : Shape := ⟨1, ![4000]⟩
abbrev S83886080x1 : Shape := ⟨2, ![83886080, 1]⟩
abbrev S2097152x40x1 : Shape := ⟨3, ![2097152, 40, 1]⟩
abbrev S2097152x40x2 : Shape := ⟨3, ![2097152, 40, 2]⟩

abbrev nBuf : Space → Nat
  | .hbm => 96
  | .vmem => 0
  | .smem => 0
  | _ => 0

abbrev bufTy : (tb : Table) → Fin (tcTables nBuf tb) → BufTy
  | .hbm, ⟨0, _⟩ => ⟨S2097152x40, .f32⟩
  | .hbm, ⟨1, _⟩ => ⟨S2097152x40, .f32⟩
  | .hbm, ⟨2, _⟩ => ⟨S40x100, .f32⟩
  | .hbm, ⟨3, _⟩ => ⟨S2097152x40, .f32⟩
  | .hbm, ⟨4, _⟩ => ⟨S2097152x40, .f32⟩
  | .hbm, ⟨5, _⟩ => ⟨S_, .f32⟩
  | .hbm, ⟨6, _⟩ => ⟨S2097152x40, .f32⟩
  | .hbm, ⟨7, _⟩ => ⟨S2097152x40, .f32⟩
  | .hbm, ⟨8, _⟩ => ⟨S_, .f32⟩
  | .hbm, ⟨9, _⟩ => ⟨S2097152x40, .f32⟩
  | .hbm, ⟨10, _⟩ => ⟨S2097152x40, .f32⟩
  | .hbm, ⟨11, _⟩ => ⟨S2097152x40, .f32⟩
  | .hbm, ⟨12, _⟩ => ⟨S2097152x40, .f32⟩
  | .hbm, ⟨13, _⟩ => ⟨S_, .f32⟩
  | .hbm, ⟨14, _⟩ => ⟨S2097152x40, .f32⟩
  | .hbm, ⟨15, _⟩ => ⟨S2097152x40, .f32⟩
  | .hbm, ⟨16, _⟩ => ⟨S2097152x40, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S2097152x40, .i32⟩
  | .hbm, ⟨21, _⟩ => ⟨S2097152x40, .i32⟩
  | .hbm, ⟨22, _⟩ => ⟨S_, .i32⟩
  | .hbm, ⟨23, _⟩ => ⟨S2097152x40, .i32⟩
  | .hbm, ⟨24, _⟩ => ⟨S2097152x40, .i32⟩
  | .hbm, ⟨25, _⟩ => ⟨S40, .i32⟩
  | .hbm, ⟨26, _⟩ => ⟨S1x40, .i32⟩
  | .hbm, ⟨27, _⟩ => ⟨S_, .i32⟩
  | .hbm, ⟨28, _⟩ => ⟨S1x40, .i32⟩
  | .hbm, ⟨29, _⟩ => ⟨S1x40, .i32⟩
  | .hbm, ⟨30, _⟩ => ⟨S2097152x40, .i32⟩
  | .hbm, ⟨31, _⟩ => ⟨S2097152x40, .i32⟩
  | .hbm, ⟨32, _⟩ => ⟨S83886080, .i32⟩
  | .hbm, ⟨33, _⟩ => ⟨S_, .f32⟩
  | .hbm, ⟨34, _⟩ => ⟨S4000, .f32⟩
  | .hbm, ⟨35, _⟩ => ⟨S_, .i32⟩
  | .hbm, ⟨36, _⟩ => ⟨S83886080, .i32⟩
  | .hbm, ⟨37, _⟩ => ⟨S83886080, .i1⟩
  | .hbm, ⟨38, _⟩ => ⟨S_, .i32⟩
  | .hbm, ⟨39, _⟩ => ⟨S83886080, .i32⟩
  | .hbm, ⟨40, _⟩ => ⟨S83886080, .i32⟩
  | .hbm, ⟨41, _⟩ => ⟨S83886080, .i32⟩
  | .hbm, ⟨42, _⟩ => ⟨S83886080x1, .i32⟩
  | .hbm, ⟨43, _⟩ => ⟨S_, .f32⟩
  | .hbm, ⟨44, _⟩ => ⟨S83886080, .f32⟩
  | .hbm, ⟨45, _⟩ => ⟨S4000, .f32⟩
  | .hbm, ⟨46, _⟩ => ⟨S40x100, .f32⟩
  | .hbm, ⟨47, _⟩ => ⟨S_, .f32⟩
  | .hbm, ⟨48, _⟩ => ⟨S40x100, .f32⟩
  | .hbm, ⟨49, _⟩ => ⟨S40x100, .i1⟩
  | .hbm, ⟨50, _⟩ => ⟨S_, .f32⟩
  | .hbm, ⟨51, _⟩ => ⟨S40x100, .f32⟩
  | .hbm, ⟨52, _⟩ => ⟨S40x100, .f32⟩
  | .hbm, ⟨53, _⟩ => ⟨S_, .f32⟩
  | .hbm, ⟨54, _⟩ => ⟨S40x100, .f32⟩
  | .hbm, ⟨55, _⟩ => ⟨S40x100, .f32⟩
  | .hbm, ⟨56, _⟩ => ⟨S40x100, .f32⟩
  | .hbm, ⟨57, _⟩ => ⟨S40x100, .f32⟩
  | .hbm, ⟨58, _⟩ => ⟨S40, .i32⟩
  | .hbm, ⟨59, _⟩ => ⟨S1x40, .i32⟩
  | .hbm, ⟨60, _⟩ => ⟨S_, .i32⟩
  | .hbm, ⟨61, _⟩ => ⟨S1x40, .i32⟩
  | .hbm, ⟨62, _⟩ => ⟨S1x40, .i1⟩
  | .hbm, ⟨63, _⟩ => ⟨S_, .i32⟩
  | .hbm, ⟨64, _⟩ => ⟨S1x40, .i32⟩
  | .hbm, ⟨65, _⟩ => ⟨S1x40, .i32⟩
  | .hbm, ⟨66, _⟩ => ⟨S1x40, .i32⟩
  | .hbm, ⟨67, _⟩ => ⟨S_, .i32⟩
  | .hbm, ⟨68, _⟩ => ⟨S2097152x40, .i32⟩
  | .hbm, ⟨69, _⟩ => ⟨S2097152x40, .i1⟩
  | .hbm, ⟨70, _⟩ => ⟨S_, .i32⟩
  | .hbm, ⟨71, _⟩ => ⟨S2097152x40, .i32⟩
  | .hbm, ⟨72, _⟩ => ⟨S2097152x40, .i32⟩
  | .hbm, ⟨73, _⟩ => ⟨S2097152x40, .i32⟩
  | .hbm, ⟨74, _⟩ => ⟨S2097152x40, .i32⟩
  | .hbm, ⟨75, _⟩ => ⟨S2097152x40x1, .i32⟩
  | .hbm, ⟨76, _⟩ => ⟨S2097152x40x1, .i32⟩
  | .hbm, ⟨77, _⟩ => ⟨S2097152x40x2, .i32⟩
  | .hbm, ⟨78, _⟩ => ⟨S2097152x40, .f32⟩
  | .hbm, ⟨79, _⟩ => ⟨S_, .f32⟩
  | .hbm, ⟨80, _⟩ => ⟨S2097152x40, .f32⟩
  | .hbm, ⟨81, _⟩ => ⟨S2097152x40, .f32⟩
  | .hbm, ⟨82, _⟩ => ⟨S_, .f32⟩
  | .hbm, ⟨83, _⟩ => ⟨S2097152x40, .f32⟩
  | .hbm, ⟨84, _⟩ => ⟨S2097152x40, .f32⟩
  | .hbm, ⟨85, _⟩ => ⟨S2097152x40, .f32⟩
  | .hbm, ⟨86, _⟩ => ⟨S2097152x40, .f32⟩
  | .hbm, ⟨87, _⟩ => ⟨S2097152x40, .f32⟩
  | .hbm, ⟨88, _⟩ => ⟨S2097152x40, .f32⟩
  | .hbm, ⟨89, _⟩ => ⟨S2097152x40, .f32⟩
  | .hbm, ⟨90, _⟩ => ⟨S2097152x40, .f32⟩
  | .hbm, ⟨91, _⟩ => ⟨S2097152x40, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | _, _ => ⟨S2097152x40, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_c_2 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_c_5 : Ref sig .tc := ⟨.hbm, 35, rfl⟩
abbrev main_v20 : Ref sig .tc := ⟨.hbm, 36, rfl⟩
abbrev main_v21 : Ref sig .tc := ⟨.hbm, 37, rfl⟩
abbrev main_c_6 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_cst_10 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_11 : Ref sig .tc := ⟨.hbm, 60, rfl⟩
abbrev main_v39 : Ref sig .tc := ⟨.hbm, 61, rfl⟩
abbrev main_v40 : Ref sig .tc := ⟨.hbm, 62, rfl⟩
abbrev main_c_12 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_13 : Ref sig .tc := ⟨.hbm, 67, rfl⟩
abbrev main_v44 : Ref sig .tc := ⟨.hbm, 68, rfl⟩
abbrev main_v45 : Ref sig .tc := ⟨.hbm, 69, rfl⟩
abbrev main_c_14 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_15 : Ref sig .tc := ⟨.hbm, 79, rfl⟩
abbrev main_v54 : Ref sig .tc := ⟨.hbm, 80, rfl⟩
abbrev main_v55 : Ref sig .tc := ⟨.hbm, 81, rfl⟩
abbrev main_cst_16 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_17 : Ref sig .tc := ⟨.hbm, 92, rfl⟩
abbrev main_v65 : Ref sig .tc := ⟨.hbm, 93, rfl⟩
abbrev main_cst_18 : Ref sig .tc := ⟨.hbm, 94, rfl⟩
abbrev main_v66 : Ref sig .tc := ⟨.hbm, 95, rfl⟩

abbrev nD : Nat := 1
abbrev τ : Topo := Topo.v7x

variable {F : FTy → Type} [FloatOps F]

class Facts₀ : Prop where
  bcast_S_S2097152x40 : S_.BroadcastsInDim S2097152x40 (![] : Fin 0 → Fin S2097152x40.rank)
  bcast_S40_S1x40_1 : S40.BroadcastsInDim S1x40 (![1] : Fin 1 → Fin S1x40.rank)
  bcast_S_S1x40 : S_.BroadcastsInDim S1x40 (![] : Fin 0 → Fin S1x40.rank)
  bcast_S1x40_S2097152x40_0_1 : S1x40.BroadcastsInDim S2097152x40 (![0, 1] : Fin 2 → Fin S2097152x40.rank)
  shapeCasts_S2097152x40_S83886080 : S2097152x40.ShapeCasts S83886080
  bcast_S_S4000 : S_.BroadcastsInDim S4000 (![] : Fin 0 → Fin S4000.rank)
  bcast_S_S83886080 : S_.BroadcastsInDim S83886080 (![] : Fin 0 → Fin S83886080.rank)
  bcast_S83886080_S83886080x1_0 : S83886080.BroadcastsInDim S83886080x1 (![0] : Fin 1 → Fin S83886080x1.rank)
  shapeCasts_S4000_S40x100 : S4000.ShapeCasts S40x100
  bcast_S_S40x100 : S_.BroadcastsInDim S40x100 (![] : Fin 0 → Fin S40x100.rank)
  bcast_S2097152x40_S2097152x40x1_0_1 : S2097152x40.BroadcastsInDim S2097152x40x1 (![0, 1] : Fin 2 → Fin S2097152x40x1.rank)
  concatenates_S2097152x40x1_S2097152x40x1_S2097152x40x2_d2 : Shape.Concatenates [S2097152x40x1, S2097152x40x1] S2097152x40x2 2
  reducesTo_S2097152x40_S_d0_1 : S2097152x40.ReducesTo [0, 1] S_
  h_S_ : 0 < S_.numel
  scatter_S4000_S83886080x1_S83886080_n_0_0_1_wf : ScatterDims.WF S4000 S83886080x1 S83886080 [] [0] [0] 1
  gather_S40x100_S2097152x40x2_S2097152x40_n_01_n_n_01_2_11_wf : GatherDims.WF S40x100 S2097152x40x2 S2097152x40 [] [0, 1] [] [0, 1] [] 2 ![1, 1]

variable [Facts₀]

def scatter_S4000_S83886080x1_S83886080_n_0_0_1 : ScatterDims S4000 S83886080x1 S83886080 where
  updateWindowDims := []
  insertedWindowDims := [0]
  scatterDimsToOperandDims := [0]
  indexVectorDim := 1
  wf := scatter_S4000_S83886080x1_S83886080_n_0_0_1_wf
def gather_S40x100_S2097152x40x2_S2097152x40_n_01_n_n_01_2_11 : GatherDims S40x100 S2097152x40x2 S2097152x40 where
  offsetDims := []
  collapsedSliceDims := [0, 1]
  operandBatchingDims := []
  startIndicesBatchingDims := []
  startIndexMap := [0, 1]
  indexVectorDim := 2
  sliceSizes := ![1, 1]
  wf := gather_S40x100_S2097152x40x2_S2097152x40_n_01_n_n_01_2_11_wf

class Facts : Prop extends Facts₀ where

variable [Facts]
-- ==== Proof.KernelRun.lean ====
/-
  The idealized kernel program's run with its three results read: every weakly fair execution of @main ends with the loss,
  the weights and the new accumulator buffers holding what the last segment boundary's fold of the program (`Gen.W6`:
  the first pipeline's arrays written back, the host operations between, the second pipeline's arrays, the closing
  transpose) holds there, and with the three argument arrays as launched.
-/
import proofs.«148853_j13846974562932_2_alg».proof.Proof.Gen.KernelIdeal.Frame

set_option maxRecDepth 16384

noncomputable section

namespace Cert.KernelIdeal.RunValues

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with each result buffer at the last boundary's contents and the arguments unchanged. -/
theorem run : θ_run defs (onTc (τ := τ) (main (F := F))) ⟨m, fun _ => 0, ρ⟩ (fun r => ∀ c : Dev nD,
      r.2.mem ((c.tc : Thread nD τ).loc main_v11) = W6 m ρ c (Proc.devRef .tc main_v11)
      ∧ r.2.mem ((c.tc : Thread nD τ).loc main_v12) = W6 m ρ c (Proc.devRef .tc main_v12)
      ∧ r.2.mem ((c.tc : Thread nD τ).loc main_v13) = W6 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v11 (by decide)),
       h c _ (mem_uc main_v12 (by decide)),
       h c _ (mem_uc main_v13 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c)⟩)

end Cert.KernelIdeal.RunValues

end
-- ==== Proof.HistStep.lean ====
/-
  One bin of the histogram kernel, and the 100 bins in order, as functions of the tile's bin words.

  For a tile of 8192 rows × 40 classes whose elements' bin words are `bin`, bin `k`'s step adds to the [100, 40]
  accumulator, in row `k` only, the per-class count of the tile's rows whose bin is `k` (a column sum of the 0/1
  indicator); every other row gets a zero added. After the 100 steps in order, row `p` of the accumulator holds the
  per-class counts of bin `p`: each row is touched by exactly one step.
-/
import proofs.«148853_j13846974562932_2_alg».proof.Proof.Gen.KernelIdeal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

namespace Cert.KernelIdeal.Hist

open Cert.KernelIdeal Cert.KernelIdeal.Gen Idealize.ShloMosaic Idealize.ShloMosaic.ValueIdx

variable {F : FTy → Type} [FloatOps F]

/-- Bin `k`'s step on the accumulator: row `k` gains the per-class count of the tile's elements in bin `k`. -/
def histStep (bin : IVec S8192x40 32) (acc : FVec F S100x40 .f32) (k : BitVec 32) : FVec F S100x40 .f32 :=
  addf acc (select (cmpi .eq (iota .tc S100x40 32 [0] iota_S100x40_d0_w32) (broadcast S100x40 k))
    (broadcastTo S100x40 (shapeCast S1x40 (shapeCast S1x40
        (multiReduction .add [0] S40 (sitofp .f32 (extui 32 (cmpi .eq bin (broadcast S8192x40 k)) natLt_1_32))
          0x00000000#32 reduces_S8192x40_S40 (.inl rfl) rfl)
        shapeCasts_S40_S1x40) shapeCasts_S1x40_S1x40) broadcasts_S1x40_S100x40)
    (broadcast S100x40 (Scalar.ofBits .f32 0x00000000#32)))

/-- The first `n` bins' steps in order, from the zero accumulator. -/
def histAcc (bin : IVec S8192x40 32) : Nat → FVec F S100x40 .f32
  | 0 => broadcast S100x40 (Scalar.ofBits .f32 0x00000000#32)
  | n + 1 => histStep bin (histAcc bin n) (BitVec.ofNat 32 n)

/-- The 0/1 indicator, as an extended real, that a word is the bin `k`. -/
def ind (b : BitVec 32) (k : Nat) : EReal := if b = BitVec.ofNat 32 k then 1 else 0

/-- The tile's per-class count of bin `k`. -/
def tileCnt (bin : IVec S8192x40 32) (k : Nat) (q : Fin 40) : EReal := ∑ r : Fin 8192, ind (bin (ix2 r q)) k

theorem mask_apply (bin : IVec S8192x40 32) (k : Nat) (j : S8192x40.Idx) :
    (sitofp .f32 (extui 32 (cmpi .eq bin (broadcast S8192x40 (BitVec.ofNat 32 k))) natLt_1_32) : FVec Ideal S8192x40 .f32) j
      = ind (bin j) k := by
  show ((((BitVec.ofBool (bin j == BitVec.ofNat 32 k)).setWidth 32).toInt : ℝ) : EReal) = _
  unfold ind
  by_cases h : bin j = BitVec.ofNat 32 k
  · rw [if_pos h, h]; simp
  · rw [if_neg h]
    have : (bin j == BitVec.ofNat 32 k) = false := by simpa using h
    rw [this]; simp

/-- The index a column sum reads at row `r`. -/
theorem lift_eq (q : Fin 40) (r : Fin 8192) :
    (reduces_S8192x40_S40 : S8192x40.Reduces [0] S40).lift (ix1 q) r = ix2 r q := by
  funext c
  apply Fin.ext
  match c with
  | ⟨0, _⟩ => rfl
  | ⟨1, _⟩ => rfl

/-- The column sum of bin `k`'s indicator is the tile's per-class count of bin `k`. -/
theorem col_apply (bin : IVec S8192x40 32) (k : Nat) (q : Fin 40) :
    (multiReduction .add [0] S40
      (sitofp .f32 (extui 32 (cmpi .eq bin (broadcast S8192x40 (BitVec.ofNat 32 k))) natLt_1_32) : FVec Ideal S8192x40 .f32)
      0x00000000#32 reduces_S8192x40_S40 (.inl rfl) rfl) (ix1 q) = tileCnt bin k q := by
  refine (Ideal.multiReduction_add_single _ _ reduces_S8192x40_S40 _ _ (ix1 q)).trans ?_
  show ∑ r : Fin 8192, _ = ∑ r : Fin 8192, _
  refine Finset.sum_congr rfl fun r _ => ?_
  rw [lift_eq]
  exact mask_apply bin k _

/-- Bin `k`'s step at row `p`, class `q`: the tile's count of bin `k` is added in row `k`, zero elsewhere. -/
theorem histStep_apply (bin : IVec S8192x40 32) (acc : FVec Ideal S100x40 .f32) (k : Nat) (hk : k < 100) (p : Fin 100)
    (q : Fin 40) :
    histStep bin acc (BitVec.ofNat 32 k) (ix2 p q) = acc (ix2 p q) + (if p.val = k then tileCnt bin k q else 0) := by
  unfold histStep
  rw [addf_apply, select_apply]
  have hc : (cmpi .eq (iota .tc S100x40 32 [0] iota_S100x40_d0_w32) (broadcast S100x40 (BitVec.ofNat 32 k))) (ix2 p q)
      = BitVec.ofBool (decide (p.val = k)) := by
    show BitVec.ofBool (BitVec.ofNat 32 (0 * 100 + p.val) == BitVec.ofNat 32 k) = _
    congr 1
    have hp := p.isLt
    rw [Nat.zero_mul, Nat.zero_add]
    by_cases h : p.val = k
    · simp [h]
    · have : ¬ BitVec.ofNat 32 p.val = BitVec.ofNat 32 k := fun e => h (by
        have := congrArg BitVec.toNat e
        simp only [BitVec.toNat_ofNat] at this
        omega)
      simp [h, this]
  rw [hc]
  by_cases h : p.val = k
  · rw [if_pos h]
    simp only [h, decide_true, BitVec.ofBool_true]
    show acc (ix2 p q) + _ = _
    congr 1
    unfold Scalar.select
    rw [if_pos rfl]
    rw [broadcastTo_1b_ab_apply, shapeCast_self, shapeCast_a_1a_apply]
    exact col_apply bin k q
  · rw [if_neg h]
    simp only [h, decide_false, BitVec.ofBool_false]
    unfold Scalar.select
    rw [if_neg (by decide)]
    show acc (ix2 p q) + Ideal.ofBits .f32 0x00000000#32 = _
    rw [Ideal.ofBits_zero_f32]

/-- After the first `n` steps, row `p` holds bin `p`'s count if its step has run and zero if not. -/
theorem histAcc_apply (bin : IVec S8192x40 32) (n : Nat) (hn : n ≤ 100) (p : Fin 100) (q : Fin 40) :
    (histAcc (F := Ideal) bin n) (ix2 p q) = if p.val < n then tileCnt bin p.val q else 0 := by
  induction n with
  | zero =>
    show Ideal.ofBits .f32 0x00000000#32 = _
    rw [Ideal.ofBits_zero_f32, if_neg (Nat.not_lt_zero _)]
  | succ n ih =>
    show histStep bin (histAcc bin n) (BitVec.ofNat 32 n) (ix2 p q) = _
    rw [histStep_apply bin _ n (by omega) p q, ih (by omega)]
    by_cases h1 : p.val < n
    · rw [if_pos h1, if_neg (by omega), if_pos (by omega), add_zero]
    · rw [if_neg h1]
      by_cases h2 : p.val = n
      · rw [if_pos h2, if_pos (by omega), zero_add, h2]
      · rw [if_neg h2, if_neg (by omega), add_zero]

/-- After all 100 steps, row `p` holds the tile's per-class counts of bin `p`. -/
theorem histAcc_full (bin : IVec S8192x40 32) (p : Fin 100) (q : Fin 40) :
    (histAcc (F := Ideal) bin 100) (ix2 p q) = tileCnt bin p.val q := by
  rw [histAcc_apply bin 100 (le_refl _) p q, if_pos p.isLt]

end Cert.KernelIdeal.Hist

end
-- ==== Proof.HistBlock.lean ====
/-
  What the histogram kernel's body leaves in its two accumulated outputs, per grid point.

  At a tile whose logits and targets are `x0`, `x1`: the count block gains the tile's 100 × 40 histogram (the 100 bin
  steps of `Hist.histAcc` over the tile's bin words) and the loss cell gains the tile's summed elementwise loss; at the
  first point both start from zero, at every later point from what the point before left.
-/
import proofs.«148853_j13846974562932_2_alg».proof.Proof.Gen.KernelIdeal.Frame
import proofs.«148853_j13846974562932_2_alg».proof.Proof.HistStep
import Idealize.ShloMosaic.Lib.Pipeline.Value
import Idealize.ShloMosaic.Lib.Tactic

set_option maxRecDepth 65536

noncomputable section

namespace Cert.KernelIdeal.Hist

open Idealize.ShloMosaic Idealize.ShloMosaic.TcCoe Idealize.SL.Sem Cert.KernelIdeal Cert.KernelIdeal.Gen

variable {F : FTy → Type} [FloatOps F]

theorem hz : (![0, 0] : Fin 2 → Nat) = fun _ => 0 := funext fun a => by fin_cases a <;> rfl

/-- The tile's bin words. -/
abbrev tileBin (x0 x1 : Vec F S8192x40 .f32) : IVec S8192x40 32 := k0_pay4 x0 x1

/-- The zero count block and the zero loss cell the first point stores. -/
abbrev zeroC : FVec F S100x40 .f32 := broadcast S100x40 (Scalar.ofBits .f32 0x00000000#32)
abbrev zeroL : FVec F S1x1 .f32 := broadcast S1x1 (Scalar.ofBits .f32 0x00000000#32)

/-- The tile's summed elementwise loss: each row's sum over the classes, then the sum of the rows, as a [1, 1] cell. -/
def tileLoss (x0 x1 : Vec F S8192x40 .f32) : FVec F S1x1 .f32 :=
  shapeCast S1x1 (multiReduction .add [0] S1 (shapeCast S8192x1
      (multiReduction .add [1] S8192
        (addf (subf (maximumf x0 (broadcast S8192x40 (Scalar.ofBits .f32 0x00000000#32))) (mulf x0 x1))
          (log1p (exp (subf (broadcast S8192x40 (Scalar.ofBits .f32 0x00000000#32)) (absf x0)))))
        0x00000000#32 reduces_S8192x40_S8192 (.inl rfl) rfl)
      shapeCasts_S8192_S8192x1) 0x00000000#32 reduces_S8192x1_S1 (.inl rfl) rfl) shapeCasts_S1_S1x1

/-- A later point's counts: what the point before left plus the tile's histogram. -/
theorem out_B_2 (c : Dev nD) (i : grid0.Coords) (a1 : Memref sig .tc .vmem S8192x40 .f32) (h1 : a1.IsWhole)
    (a2 : Memref sig .tc .vmem S8192x40 .f32) (h2 : a2.IsWhole) (a3 : Memref sig .tc .vmem S100x40 .f32) (h3 : a3.IsWhole)
    (a4 : Memref sig .tc .vmem S1x1 .f32) (h4 : a4.IsWhole) (hc : ¬cond0_0 i)
    (x0 x1 : Vec F S8192x40 .f32) (xo2 : Vec F S100x40 .f32) (xo3 : Vec F S1x1 .f32) :
    out0_B_2 c i a1 h1 a2 h2 a3 h3 a4 h4 hc x0 x1 xo2 xo3 = addf xo2 (histAcc (tileBin x0 x1) 100) := by
  unfold out0_B_2
  rw [View.read_writes_eq_canon _ _ _ (cover0_B_2 c i a1 h1 a2 h2 a3 h3 a4 h4 hc x0 x1 xo2 xo3)]
  unfold kernelRun0_B
  dsimp only
  sl_unfold_words
  rw [View.canon_unit_zero hz]
  simp only [View.readAt_eq_ld, h1.read_unread, h2.read_unread, h3.read_unread, View.ld_unit_zero (S := S8192x40) hz,
    View.ld_unit_zero (S := S100x40) hz]
  refine Eq.trans (b := addf (shapeCast S100x40 xo2 shapeCasts_S100x40_S100x40) (histAcc (k0_pay4 x0 x1) 100)) ?_ ?_
  · rfl
  · rw [shapeCast_self]

/-- A later point's loss cell: what the point before left plus the tile's loss. -/
theorem out_B_3 (c : Dev nD) (i : grid0.Coords) (a1 : Memref sig .tc .vmem S8192x40 .f32) (h1 : a1.IsWhole)
    (a2 : Memref sig .tc .vmem S8192x40 .f32) (h2 : a2.IsWhole) (a3 : Memref sig .tc .vmem S100x40 .f32) (h3 : a3.IsWhole)
    (a4 : Memref sig .tc .vmem S1x1 .f32) (h4 : a4.IsWhole) (hc : ¬cond0_0 i)
    (x0 x1 : Vec F S8192x40 .f32) (xo2 : Vec F S100x40 .f32) (xo3 : Vec F S1x1 .f32) :
    out0_B_3 c i a1 h1 a2 h2 a3 h3 a4 h4 hc x0 x1 xo2 xo3 = addf xo3 (tileLoss x0 x1) := by
  unfold out0_B_3
  rw [View.read_writes_eq_canon _ _ _ (cover0_B_3 c i a1 h1 a2 h2 a3 h3 a4 h4 hc x0 x1 xo2 xo3)]
  unfold kernelRun0_B
  dsimp only
  sl_unfold_words
  rw [View.canon_unit_zero hz]
  simp only [View.readAt_eq_ld, h1.read_unread, h2.read_unread, h4.read_unread, View.ld_unit_zero (S := S8192x40) hz,
    View.ld_unit_zero (S := S1x1) hz]
  refine Eq.trans (b := addf (shapeCast S1x1 xo3 shapeCasts_S1x1_S1x1) (tileLoss x0 x1)) ?_ ?_
  · rfl
  · rw [shapeCast_self]

/-- The first point's counts: zero plus the tile's histogram. -/
theorem out_A_2 (c : Dev nD) (i : grid0.Coords) (a1 : Memref sig .tc .vmem S8192x40 .f32) (h1 : a1.IsWhole)
    (a2 : Memref sig .tc .vmem S8192x40 .f32) (h2 : a2.IsWhole) (a3 : Memref sig .tc .vmem S100x40 .f32) (h3 : a3.IsWhole)
    (a4 : Memref sig .tc .vmem S1x1 .f32) (h4 : a4.IsWhole) (hc : cond0_0 i)
    (x0 x1 : Vec F S8192x40 .f32) :
    out0_A_2 c i a1 h1 a2 h2 a3 h3 a4 h4 hc x0 x1 = addf zeroC (histAcc (tileBin x0 x1) 100) := by
  unfold out0_A_2
  rw [View.read_writes_eq_canon _ _ _ (cover0_A_2 c i a1 h1 a2 h2 a3 h3 a4 h4 hc x0 x1)]
  unfold kernelRun0_A
  dsimp only
  sl_unfold_words
  rw [View.canon_cons_unit_zero (S := S100x40) hz, View.readCov_unit_zero (S := S100x40) _ hz]
  simp only [View.readAt_eq_ld, h1.read_unread, h2.read_unread, View.ld_unit_zero (S := S8192x40) hz,
    View.ld_unit_zero (S := S100x40) hz]
  refine Eq.trans (b := addf (shapeCast S100x40 zeroC shapeCasts_S100x40_S100x40) (histAcc (k0_pay4 x0 x1) 100)) ?_ ?_
  · rfl
  · rw [shapeCast_self]

/-- The first point's loss cell: zero plus the tile's loss. -/
theorem out_A_3 (c : Dev nD) (i : grid0.Coords) (a1 : Memref sig .tc .vmem S8192x40 .f32) (h1 : a1.IsWhole)
    (a2 : Memref sig .tc .vmem S8192x40 .f32) (h2 : a2.IsWhole) (a3 : Memref sig .tc .vmem S100x40 .f32) (h3 : a3.IsWhole)
    (a4 : Memref sig .tc .vmem S1x1 .f32) (h4 : a4.IsWhole) (hc : cond0_0 i)
    (x0 x1 : Vec F S8192x40 .f32) :
    out0_A_3 c i a1 h1 a2 h2 a3 h3 a4 h4 hc x0 x1 = addf zeroL (tileLoss x0 x1) := by
  unfold out0_A_3
  rw [View.read_writes_eq_canon _ _ _ (cover0_A_3 c i a1 h1 a2 h2 a3 h3 a4 h4 hc x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S8192x40) hz,
    View.ld_unit_zero (S := S1x1) hz]
  refine Eq.trans (b := addf (shapeCast S1x1 zeroL shapeCasts_S1x1_S1x1) (tileLoss x0 x1)) ?_ ?_
  · rfl
  · rw [shapeCast_self]

end Cert.KernelIdeal.Hist

end
-- ==== Proof.HistRun.lean ====
/-
  The histogram kernel's two result arrays after its grid of 256 row tiles.

  Both outputs keep one block (the whole array) through the grid and are written back after the last point only, so each
  ends holding the running total after point 255: the first point's tile from zero, then one tile added per point.
-/
import proofs.«148853_j13846974562932_2_alg».proof.Proof.HistBlock

set_option maxRecDepth 16384

noncomputable section

namespace Cert.KernelIdeal.Hist

open Idealize.ShloMosaic Idealize.ShloMosaic.TcCoe Idealize.SL.Sem Cert.KernelIdeal Cert.KernelIdeal.Gen
open Idealize.ShloMosaic.Pipeline (Dat)

variable {F : FTy → Type} [FloatOps F]
variable (V : (c : Dev nD) → (b : Ref sig .tc) → Buf (Elt F) ((c : Thread nD τ).loc b))

/-- The running totals after point `n`: the counts block and the loss cell. -/
def chain (c : Dev nD) : (n : ℕ) → n < cfg0.N → Vec F S100x40 .f32 × Vec F S1x1 .f32
  | 0, h => (addf zeroC (histAcc (tileBin (iblk0 V c 0 ⟨0, h⟩) (iblk0 V c 1 ⟨0, h⟩)) 100),
             addf zeroL (tileLoss (iblk0 V c 0 ⟨0, h⟩) (iblk0 V c 1 ⟨0, h⟩)))
  | n + 1, h => (addf (chain c n (Nat.lt_of_succ_lt h)).1
                  (histAcc (tileBin (iblk0 V c 0 ⟨n + 1, h⟩) (iblk0 V c 1 ⟨n + 1, h⟩)) 100),
                 addf (chain c n (Nat.lt_of_succ_lt h)).2 (tileLoss (iblk0 V c 0 ⟨n + 1, h⟩) (iblk0 V c 1 ⟨n + 1, h⟩)))

/-- What the outputs' staging buffers hold after point `n` is the running total, by induction on the point. -/
theorem outsAt_eq (c : Dev nD) : ∀ (n : ℕ) (h : n < cfg0.N), outsAt0 V c n h = chain V c n h
  | 0, h => by
    rw [outsAt0_A V c ⟨0, h⟩ rfl, out_A_2, out_A_3]
    rfl
  | n + 1, h => by
    have hN : cfg0.N = 256 := N_0
    have hB : ¬(⟨n + 1, h⟩ : Fin cfg0.N).val % 256 = 0 := by dsimp only; omega
    rw [outsAt0_B V c ⟨n + 1, h⟩ hB, out_B_2, out_B_3]
    show (addf (outsAt0 V c n _).1 _, addf (outsAt0 V c n _).2 _) = _
    rw [outsAt_eq c n]
    rfl

theorem h255 : 255 < cfg0.N := by rw [show cfg0.N = 256 from N_0]; decide

/-- The last grid point. -/
abbrev tLast : Fin cfg0.N := ⟨255, h255⟩

/-- The results: the running totals after the last point. -/
abbrev countsRes (c : Dev nD) : Vec F S100x40 .f32 := (chain V c 255 h255).1
abbrev lossRes (c : Dev nD) : Vec F S1x1 .f32 := (chain V c 255 h255).2

/-- The one write-back of the counts, at the last point: its block is the whole array. -/
theorem flushed_eq_2 (c : Dev nD) (t : Fin cfg0.N) (hf : (cfg0.win 2).flush t = true) :
    (dat0 V c).flushed 2 t = ((cfg0.win 2).blk t).view.read (Elt F) (countsRes V c) := by
  have hN : cfg0.N = 256 := N_0
  have h3 : t.val = 255 := by have := (flush0_2 t).mp hf; have := t.isLt; omega
  obtain rfl : t = tLast := Fin.ext h3
  show (cfg0.win 2).cut (grid0.coords tLast) ((dat0 V c).after 2 tLast) = _
  rw [after0_2, outsAt_eq]
  have hz' : (fun a => win0_2.index tLast a * main_v0_0.ty.shape.size a) = fun _ => 0 :=
    funext fun a => by fin_cases a <;> decide +kernel
  exact (Memref.read_access_unit_zero (Elt F) main_v0_0 hz' (fun a => by rw [congrFun hz' a]; simp) (countsRes V c)).symm

/-- The one write-back of the loss cell, at the last point. -/
theorem flushed_eq_3 (c : Dev nD) (t : Fin cfg0.N) (hf : (cfg0.win 3).flush t = true) :
    (dat0 V c).flushed 3 t = ((cfg0.win 3).blk t).view.read (Elt F) (lossRes V c) := by
  have hN : cfg0.N = 256 := N_0
  have h3 : t.val = 255 := by have := (flush0_3 t).mp hf; have := t.isLt; omega
  obtain rfl : t = tLast := Fin.ext h3
  show (cfg0.win 3).cut (grid0.coords tLast) ((dat0 V c).after 3 tLast) = _
  rw [after0_3, outsAt_eq]
  have hz' : (fun a => win0_3.index tLast a * main_v0_1.ty.shape.size a) = fun _ => 0 :=
    funext fun a => by fin_cases a <;> decide +kernel
  exact (Memref.read_access_unit_zero (Elt F) main_v0_1 hz' (fun a => by rw [congrFun hz' a]; simp) (lossRes V c)).symm

/-- So the counts array ends holding the running total after the last point. -/
theorem final_2 (c : Dev nD) : (dat0 V c).arrAt 2 cfg0.N = countsRes V c :=
  (dat0 V c).arrAt_eq_of_cover 2 (countsRes V c) (flushed_eq_2 V c) fun i =>
    ⟨tLast, (flush0_2 tLast).mpr rfl, by
      show i ∈ ((View.whole main_v0_0).slice (win0_2.rect tLast)).set
      rw [View.set_slice_whole, Rect.mem_set_unit]
      intro a
      have h0 : (i 0 : Nat) < 100 := (i 0).isLt
      have h1 : (i 1 : Nat) < 40 := (i 1).isLt
      match a with
      | ⟨0, _⟩ =>
        show win0_2.index tLast 0 * win0_2.size 0 ≤ (i 0 : Nat) ∧ (i 0 : Nat) < win0_2.index tLast 0 * win0_2.size 0 + win0_2.xsize (grid0.coords tLast) 0
        rw [show win0_2.index tLast 0 * win0_2.size 0 = 0 from by decide +kernel, show win0_2.xsize (grid0.coords tLast) 0 = 100 from by decide +kernel]; omega
      | ⟨1, _⟩ =>
        show win0_2.index tLast 1 * win0_2.size 1 ≤ (i 1 : Nat) ∧ (i 1 : Nat) < win0_2.index tLast 1 * win0_2.size 1 + win0_2.xsize (grid0.coords tLast) 1
        rw [show win0_2.index tLast 1 * win0_2.size 1 = 0 from by decide +kernel, show win0_2.xsize (grid0.coords tLast) 1 = 40 from by decide +kernel]; omega⟩

/-- And the loss cell the running loss after the last point. -/
theorem final_3 (c : Dev nD) : (dat0 V c).arrAt 3 cfg0.N = lossRes V c :=
  (dat0 V c).arrAt_eq_of_cover 3 (lossRes V c) (flushed_eq_3 V c) fun i =>
    ⟨tLast, (flush0_3 tLast).mpr rfl, by
      show i ∈ ((View.whole main_v0_1).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index tLast 0 * win0_3.size 0 ≤ (i 0 : Nat) ∧ (i 0 : Nat) < win0_3.index tLast 0 * win0_3.size 0 + win0_3.xsize (grid0.coords tLast) 0
        rw [show win0_3.index tLast 0 * win0_3.size 0 = 0 from by decide +kernel, show win0_3.xsize (grid0.coords tLast) 0 = 1 from by decide +kernel]; omega
      | ⟨1, _⟩ =>
        show win0_3.index tLast 1 * win0_3.size 1 ≤ (i 1 : Nat) ∧ (i 1 : Nat) < win0_3.index tLast 1 * win0_3.size 1 + win0_3.xsize (grid0.coords tLast) 1
        rw [show win0_3.index tLast 1 * win0_3.size 1 = 0 from by decide +kernel, show win0_3.xsize (grid0.coords tLast) 1 = 1 from by decide +kernel]; omega⟩

end Cert.KernelIdeal.Hist

end
-- ==== Proof.Spec.lean ====
/-
  The mathematics both programs compute, over the extended reals, index by index.

  For logits `P`, targets `T` (2097152 samples × 40 classes) and a running per-(class, bin) accumulator `A` (40 × 100):
  a sample's gradient magnitude `|σ(p) − t|` is cut into one of 100 bins (`bin`); `cnt k c` counts the samples of class `c`
  in bin `k`; a populated bin's accumulator entry moves to `0.6·a + 0.4·cnt`, an empty one stays (`upd`, `accNew`);
  a sample's weight is the batch size over its own bin's new accumulator entry; the loss is the mean of the elementwise
  binary cross-entropy with logits.
-/
import Idealize.ShloMosaic.PureOps.Ideal
import Idealize.ShloMosaic.PureOps.Ideal.Laws
import Idealize.ShloMosaic.Lib.ValueIdx
import Idealize.ShloMosaic.Lib.IdealHost

noncomputable section

namespace Cert.Ghm

open Idealize.ShloMosaic Idealize.ShloMosaic.ValueIdx

abbrev SBC : Shape := ⟨2, ![2097152, 40]⟩
abbrev SCK : Shape := ⟨2, ![40, 100]⟩
abbrev S0 : Shape := ⟨0, ![]⟩

/-- The bin of one sample: `|σ(p) − t| · 100` truncated to an integer and clipped to `[0, 99]`. -/
def bin (p t : EReal) : BitVec 32 :=
  IntOp.minsi 99#32 (IntOp.maxsi 0#32
    (Ideal.fptosi 32 (max (Ideal.logistic p - t) (-(Ideal.logistic p - t)) * Ideal.ofBits .f32 0x42C80000#32)))

/-- Clipping to `[0, 99]` lands in `[0, 99]`. -/
theorem clip_lt (z : BitVec 32) : (IntOp.minsi 99#32 (IntOp.maxsi 0#32 z)).toNat < 100 := by
  unfold IntOp.minsi IntOp.maxsi
  have h99 : (99#32 : BitVec 32).toInt = 99 := by decide
  have h0 : (0#32 : BitVec 32).toInt = 0 := by decide
  by_cases h1 : z.slt 0#32
  · rw [if_pos h1]
    have : (99#32 : BitVec 32).slt 0#32 = false := by decide
    rw [this]; decide
  · rw [if_neg h1]
    by_cases h2 : (99#32 : BitVec 32).slt z
    · rw [if_pos h2]; decide
    · rw [if_neg h2]
      simp only [BitVec.slt, decide_eq_true_eq, not_lt, h99, h0] at h1 h2
      have := BitVec.toInt_eq_toNat_cond z
      split at this <;> omega

theorem bin_lt (p t : EReal) : (bin p t).toNat < 100 := clip_lt _

/-- The bin as an index of the 100 bins. -/
def binIx (p t : EReal) : Fin 100 := ⟨(bin p t).toNat, bin_lt p t⟩

/-- The 0/1 indicator, as an extended real, that a bin word is the bin `k`. -/
def ind (b : BitVec 32) (k : Nat) : EReal := if b = BitVec.ofNat 32 k then 1 else 0

/-- How many samples of class `c` fall in bin `k`. -/
def cnt (P T : SBC.Idx → EReal) (k : Fin 100) (c : Fin 40) : EReal :=
  ∑ r : Fin 2097152, ind (bin (P (ix2 r c)) (T (ix2 r c))) k.val

/-- One accumulator entry's momentum update from its bin's count `n`: moved where the bin is populated, kept where not. -/
def upd (a n : EReal) : EReal :=
  Scalar.select (Ideal.cmp .ogt n (Ideal.ofBits .f32 0x00000000#32))
    (Ideal.ofBits .f32 0x3F19999A#32 * a + Ideal.ofBits .f32 0x3ECCCCCD#32 * n) a

/-- The new accumulator entry of class `c`, bin `k`. -/
def accNew (P T : SBC.Idx → EReal) (A : SCK.Idx → EReal) (c : Fin 40) (k : Fin 100) : EReal :=
  upd (A (ix2 c k)) (cnt P T k c)

/-- One element's binary cross-entropy with logits: `max(p, 0) − p·t + log(1 + e^{−|p|})`. -/
def elemLoss (p t : EReal) : EReal :=
  max p (Ideal.ofBits .f32 0x00000000#32) - p * t + Ideal.log1p (Ideal.exp (-(max p (-p))))

/-- The loss: the sum of every element's loss, from zero, over the number of elements. -/
def lossOut (P T : SBC.Idx → EReal) : S0.Idx → EReal := fun _ =>
  Ideal.div (Ideal.ofBits .f32 0x00000000#32 + ∑ i : SBC.Idx, elemLoss (P i) (T i)) (Ideal.ofBits .f32 0x4CA00000#32)

/-- The weights: the batch size over the sample's own bin's new accumulator entry. -/
def weightOut (P T : SBC.Idx → EReal) (A : SCK.Idx → EReal) : SBC.Idx → EReal := fun i =>
  Ideal.div (Ideal.ofBits .f32 0x4A000000#32) (accNew P T A (i 1) (binIx (P i) (T i)))

/-- The new accumulator, class-major. -/
def accOut (P T : SBC.Idx → EReal) (A : SCK.Idx → EReal) : SCK.Idx → EReal := fun i => accNew P T A (i 0) (i 1)

end Cert.Ghm

end
-- ==== Proof.HistTile.lean ====
/-
  One tile of the histogram kernel in the specification's terms, over the extended reals.

  The tile's bin words are the specification's `bin` of each element; its per-class count of a bin is the sum over the
  tile's rows of the bin's 0/1 indicator; its loss cell is the sum over rows and classes of the elementwise loss (the
  kernel's `0 − |p|` is the specification's `−|p|`).
-/
import proofs.«148853_j13846974562932_2_alg».proof.Proof.HistBlock
import proofs.«148853_j13846974562932_2_alg».proof.Proof.Spec

noncomputable section

namespace Cert.KernelIdeal.Hist

open Idealize.ShloMosaic Idealize.ShloMosaic.ValueIdx Cert.KernelIdeal Cert.KernelIdeal.Gen

/-- The tile's bin word at an element is the specification's bin of that element. -/
theorem tileBin_apply (x0 x1 : Vec Ideal S8192x40 .f32) (j : S8192x40.Idx) :
    tileBin x0 x1 j = Cert.Ghm.bin (x0 j) (x1 j) := rfl

/-- The tile's per-class count of bin `k`, in the specification's indicator. -/
theorem tileCnt_eq (x0 x1 : Vec Ideal S8192x40 .f32) (k : Nat) (q : Fin 40) :
    tileCnt (tileBin x0 x1) k q = ∑ r : Fin 8192, Cert.Ghm.ind (Cert.Ghm.bin (x0 (ix2 r q)) (x1 (ix2 r q))) k := rfl

/-- An `[a]` array cast to a column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem lift_row (r : Fin 8192) (q : Fin 40) :
    (reduces_S8192x40_S8192 : S8192x40.Reduces [1] S8192).lift (ix1 r) q = ix2 r q := by
  funext c
  apply Fin.ext
  match c with
  | ⟨0, _⟩ => rfl
  | ⟨1, _⟩ => rfl

theorem lift_col (u : Fin 1) (r : Fin 8192) :
    (reduces_S8192x1_S1 : S8192x1.Reduces [0] S1).lift (ix1 u) r = ix2 r u := by
  funext c
  apply Fin.ext
  match c with
  | ⟨0, _⟩ => rfl
  | ⟨1, _⟩ => rfl

theorem zero_sub' (y : EReal) : Ideal.ofBits .f32 0x00000000#32 - y = -y := by
  rw [Ideal.ofBits_zero_f32, sub_eq_add_neg, zero_add]

/-- The tile's loss cell is the sum over its rows and classes of the elementwise loss. -/
theorem tileLoss_apply (x0 x1 : Vec Ideal S8192x40 .f32) :
    tileLoss x0 x1 (ix2 (0 : Fin 1) (0 : Fin 1))
      = ∑ r : Fin 8192, ∑ q : Fin 40, Cert.Ghm.elemLoss (x0 (ix2 r q)) (x1 (ix2 r q)) := by
  unfold tileLoss
  rw [shapeCast_a_1a_apply]
  refine (Ideal.multiReduction_add_single _ _ reduces_S8192x1_S1 _ _ (ix1 (0 : Fin 1))).trans ?_
  show ∑ r : Fin 8192, _ = ∑ r : Fin 8192, _
  refine Finset.sum_congr rfl fun r _ => ?_
  rw [lift_col, shapeCast_a_a1_apply]
  refine (Ideal.multiReduction_add_single _ _ reduces_S8192x40_S8192 _ _ (ix1 r)).trans ?_
  show ∑ q : Fin 40, _ = ∑ q : Fin 40, _
  refine Finset.sum_congr rfl fun q _ => ?_
  rw [lift_row]
  show max (x0 (ix2 r q)) (Ideal.ofBits .f32 0x00000000#32) - x0 (ix2 r q) * x1 (ix2 r q)
      + Ideal.log1p (Ideal.exp (Ideal.ofBits .f32 0x00000000#32 - max (x0 (ix2 r q)) (-(x0 (ix2 r q))))) = _
  rw [zero_sub']
  rfl

end Cert.KernelIdeal.Hist

end
-- ==== Proof.HistTotal.lean ====
/-
  The histogram kernel's two result arrays in the specification's terms, over the extended reals.

  Row tile `t` of the two inputs is rows `8192·t … 8192·t + 8191` of the arrays; the running totals after the last
  point are the sums over the 256 tiles of the tiles' counts and losses; and a sum over tiles and rows within a tile is
  the sum over all 2097152 rows. So the counts array holds, at bin `p` and class `q`, the specification's count, and the
  loss cell the sum of every element's loss.
-/
import proofs.«148853_j13846974562932_2_alg».proof.Proof.HistRun
import proofs.«148853_j13846974562932_2_alg».proof.Proof.HistTile

set_option maxRecDepth 16384

noncomputable section

namespace Cert.KernelIdeal.Hist

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-- A sum over all rows is the sum over the 256 tiles of the sums over a tile's 8192 rows. -/
theorem sum_tiles {M : Type*} [AddCommMonoid M] (g : Fin 2097152 → M) :
    ∑ R : Fin 2097152, g R
      = ∑ t : Fin 256, ∑ r : Fin 8192, g ⟨8192 * t.val + r.val, by have := t.isLt; have := r.isLt; omega⟩ := by
  have e : (∑ x : Fin 256 × Fin 8192, g ⟨8192 * x.1.val + x.2.val, by have := x.1.isLt; have := x.2.isLt; omega⟩)
      = ∑ R : Fin 2097152, g R :=
    Fintype.sum_equiv (finProdFinEquiv (m := 256) (n := 8192)) _ _
      (fun x => congrArg g (Fin.ext (by simp only [finProdFinEquiv_apply_val]; omega)))
  rw [← e, Fintype.sum_prod_type]

/-- The index maps of the two input windows: block `t` is row tile `t`, all 40 classes. -/
theorem idx_facts : ∀ t : Fin cfg0.N, (win0_0.index t 0 = t.val ∧ win0_0.index t 1 = 0)
    ∧ (win0_1.index t 0 = t.val ∧ win0_1.index t 1 = 0) :=
  (by decide +kernel : ∀ t : Fin grid0.N, (win0_0.index t 0 = t.val ∧ win0_0.index t 1 = 0)
    ∧ (win0_1.index t 0 = t.val ∧ win0_1.index t 1 = 0))

/-- Row `r` of tile `t`, as a row of the arrays. -/
def rowOf (t : ℕ) (ht : t < cfg0.N) (r : Fin 8192) : Fin 2097152 :=
  ⟨8192 * t + r.val, by have := r.isLt; rw [show cfg0.N = 256 from N_0] at ht; omega⟩

/-- The logits' block at point `t` reads the logits array at the tile's rows. -/
theorem iblk0_0_apply (c : Dev nD) (t : ℕ) (ht : t < cfg0.N) (r : Fin 8192) (q : Fin 40) :
    (iblk0 V c 0 ⟨t, ht⟩ : Vec Ideal S8192x40 .f32) (ix2 r q) = V c main_arg0 (ix2 (rowOf t ht r) q) := by
  have hi := (idx_facts ⟨t, ht⟩).1
  unfold iblk0
  rw [View.read_apply]
  show V c main_arg0 _ = V c main_arg0 _
  congr 1
  funext a
  apply Fin.ext
  match a with
  | ⟨0, _⟩ => show win0_0.index ⟨t, ht⟩ 0 * 8192 + 1 * r.val = 8192 * t + r.val; rw [hi.1]; show t * 8192 + 1 * r.val = 8192 * t + r.val; omega
  | ⟨1, _⟩ => show win0_0.index ⟨t, ht⟩ 1 * 40 + 1 * q.val = q.val; rw [hi.2]; omega

/-- The targets' block at point `t` reads the targets array at the tile's rows. -/
theorem iblk0_1_apply (c : Dev nD) (t : ℕ) (ht : t < cfg0.N) (r : Fin 8192) (q : Fin 40) :
    (iblk0 V c 1 ⟨t, ht⟩ : Vec Ideal S8192x40 .f32) (ix2 r q) = V c main_arg1 (ix2 (rowOf t ht r) q) := by
  have hi := (idx_facts ⟨t, ht⟩).2
  unfold iblk0
  rw [View.read_apply]
  show V c main_arg1 _ = V c main_arg1 _
  congr 1
  funext a
  apply Fin.ext
  match a with
  | ⟨0, _⟩ => show win0_1.index ⟨t, ht⟩ 0 * 8192 + 1 * r.val = 8192 * t + r.val; rw [hi.1]; show t * 8192 + 1 * r.val = 8192 * t + r.val; omega
  | ⟨1, _⟩ => show win0_1.index ⟨t, ht⟩ 1 * 40 + 1 * q.val = q.val; rw [hi.2]; omega

/-- Tile `t`'s count of bin `p`, class `q` (zero past the grid). -/
def tcnt (c : Dev nD) (p : Fin 100) (q : Fin 40) (t : ℕ) : EReal :=
  if h : t < cfg0.N then tileCnt (tileBin (iblk0 V c 0 ⟨t, h⟩) (iblk0 V c 1 ⟨t, h⟩)) p.val q else 0

/-- Tile `t`'s loss (zero past the grid). -/
def tloss (c : Dev nD) (t : ℕ) : EReal :=
  if h : t < cfg0.N then tileLoss (iblk0 V c 0 ⟨t, h⟩) (iblk0 V c 1 ⟨t, h⟩) (ix2 (0 : Fin 1) (0 : Fin 1)) else 0

/-- The running counts after point `n` are the first `n + 1` tiles' counts, summed. -/
theorem chain_counts (c : Dev nD) (p : Fin 100) (q : Fin 40) :
    ∀ (n : ℕ) (h : n < cfg0.N), (chain V c n h).1 (ix2 p q) = ∑ t ∈ Finset.range (n + 1), tcnt V c p q t
  | 0, h => by
    show Ideal.ofBits .f32 0x00000000#32 + histAcc (F := Ideal) _ 100 (ix2 p q) = _
    rw [Finset.sum_range_one, Ideal.ofBits_zero_f32, zero_add, histAcc_full]
    unfold tcnt
    rw [dif_pos h]
  | n + 1, h => by
    show (chain V c n _).1 (ix2 p q) + histAcc (F := Ideal) _ 100 (ix2 p q) = _
    rw [chain_counts c p q n, Finset.sum_range_succ _ (n + 1), histAcc_full]
    congr 1
    unfold tcnt
    rw [dif_pos h]

/-- The running loss after point `n` is the first `n + 1` tiles' losses, summed. -/
theorem chain_loss (c : Dev nD) :
    ∀ (n : ℕ) (h : n < cfg0.N), (chain V c n h).2 (ix2 (0 : Fin 1) (0 : Fin 1)) = ∑ t ∈ Finset.range (n + 1), tloss V c t
  | 0, h => by
    show Ideal.ofBits .f32 0x00000000#32 + tileLoss (F := Ideal) _ _ (ix2 (0 : Fin 1) (0 : Fin 1)) = _
    rw [Finset.sum_range_one, Ideal.ofBits_zero_f32, zero_add]
    unfold tloss
    rw [dif_pos h]
  | n + 1, h => by
    show (chain V c n _).2 (ix2 (0 : Fin 1) (0 : Fin 1)) + tileLoss (F := Ideal) _ _ (ix2 (0 : Fin 1) (0 : Fin 1)) = _
    rw [chain_loss c n, Finset.sum_range_succ _ (n + 1)]
    congr 1
    unfold tloss
    rw [dif_pos h]

/-- The counts array: at bin `p`, class `q`, the specification's count over all rows. -/
theorem counts_apply (c : Dev nD) (p : Fin 100) (q : Fin 40) :
    countsRes V c (ix2 p q) = Cert.Ghm.cnt (V c main_arg0) (V c main_arg1) p q := by
  have hN : cfg0.N = 256 := N_0
  show (chain V c 255 h255).1 (ix2 p q) = _
  rw [chain_counts V c p q 255 h255, Finset.sum_range]
  unfold Cert.Ghm.cnt
  rw [sum_tiles]
  refine Finset.sum_congr rfl fun t _ => ?_
  have ht : t.val < cfg0.N := by rw [hN]; exact t.isLt
  unfold tcnt
  rw [dif_pos ht, tileCnt_eq]
  refine Finset.sum_congr rfl fun r _ => ?_
  rw [iblk0_0_apply V c t.val ht r q, iblk0_1_apply V c t.val ht r q]
  rfl

/-- The loss cell: the sum of every element's loss. -/
theorem loss_apply (c : Dev nD) :
    lossRes V c (ix2 (0 : Fin 1) (0 : Fin 1))
      = ∑ i : Cert.Ghm.SBC.Idx, Cert.Ghm.elemLoss (V c main_arg0 i) (V c main_arg1 i) := by
  have hN : cfg0.N = 256 := N_0
  show (chain V c 255 h255).2 (ix2 (0 : Fin 1) (0 : Fin 1)) = _
  rw [chain_loss V c 255 h255, Finset.sum_range, sum_idx2, sum_tiles]
  refine Finset.sum_congr rfl fun t _ => ?_
  have ht : t.val < cfg0.N := by rw [hN]; exact t.isLt
  unfold tloss
  rw [dif_pos ht, tileLoss_apply]
  refine Finset.sum_congr rfl fun r _ => ?_
  refine Finset.sum_congr rfl fun q _ => ?_
  rw [iblk0_0_apply V c t.val ht r q, iblk0_1_apply V c t.val ht r q]
  rfl

end Cert.KernelIdeal.Hist

end
-- ==== Proof.HostGlue.lean ====
/-
  The host operations of the idealized kernel program around its two pipelines, read as values.

  Between the pipelines the host transposes the accumulator argument to bin-major, forms the new accumulator from the
  counts (moved where a count is positive, kept elsewhere) and divides the loss cell by the number of elements; after
  the second pipeline it transposes the new accumulator back to class-major. Nothing writes the three arguments.
-/
import proofs.«148853_j13846974562932_2_alg».proof.Proof.Gen.KernelIdeal.Frame
import Idealize.ShloMosaic.Lib.StableHlo.Run
import Idealize.ShloMosaic.Lib.Pipeline.Value

set_option maxRecDepth 16384

noncomputable section

namespace Cert.KernelIdeal.Glue

open Idealize.ShloMosaic Idealize.ShloMosaic.TcCoe Idealize.SL.Sem Cert.KernelIdeal Cert.KernelIdeal.Gen
open Idealize.ShloMosaic.StableHlo
open Idealize.ShloMosaic.Pipeline (Dat)

variable {F : FTy → Type} [FloatOps F]
variable (m : (ℓ : Loc nD τ sig) → Buf (Elt F) ℓ) (ρ : Dev nD → PrngReg)

/-- The new accumulator, bin-major, from the counts and the class-major accumulator. -/
def accT (counts : FVec F S100x40 .f32) (A : FVec F S40x100 .f32) : FVec F S100x40 .f32 :=
  select (cmpf .ogt counts (broadcastInDim S100x40 ![] bcast_S_S100x40 (constant (F := F) S_ .f32 0x00000000#32)))
    (addf (mulf (broadcastInDim S100x40 ![] bcast_S_S100x40 (constant (F := F) S_ .f32 0x3F19999A#32))
            (transpose S100x40 [1, 0] A transposes_S40x100_S100x40_1_0))
          (mulf (broadcastInDim S100x40 ![] bcast_S_S100x40 (constant (F := F) S_ .f32 0x3ECCCCCD#32)) counts))
    (transpose S100x40 [1, 0] A transposes_S40x100_S100x40_1_0)

/-! ## After the first pipeline -/

theorem W1_arg0 (c : Dev nD) : W1 m ρ c (Proc.devRef .tc main_arg0) = m ((c : Thread nD τ).loc main_arg0) :=
  (W1_arr m ρ c 0).trans (((dat0 (V0 m ρ) c).arrAt_in 0 rfl _).trans (A_eq0 (V0 m ρ) c 0))
theorem W1_arg1 (c : Dev nD) : W1 m ρ c (Proc.devRef .tc main_arg1) = m ((c : Thread nD τ).loc main_arg1) :=
  (W1_arr m ρ c 1).trans (((dat0 (V0 m ρ) c).arrAt_in 1 rfl _).trans (A_eq0 (V0 m ρ) c 1))
theorem W1_arg2 (c : Dev nD) : W1 m ρ c (Proc.devRef .tc main_arg2) = m ((c : Thread nD τ).loc main_arg2) :=
  W1_of_ne m ρ c main_arg2 (by decide)
theorem W1_counts (c : Dev nD) : W1 m ρ c (Proc.devRef .tc main_v0_0) = (dat0 (V0 m ρ) c).arrAt 2 cfg0.N := W1_arr m ρ c 2
theorem W1_loss (c : Dev nD) : W1 m ρ c (Proc.devRef .tc main_v0_1) = (dat0 (V0 m ρ) c).arrAt 3 cfg0.N := W1_arr m ρ c 3

/-! ## At the second pipeline's entry -/

theorem W4_arg0 (c : Dev nD) : W4 m ρ c (Proc.devRef .tc main_arg0) = m ((c : Thread nD τ).loc main_arg0) := by
  show after hostOps1_2 (after hostOps1_1 (after hostOps1 (W1 m ρ c))) (Proc.devRef .tc main_arg0) = _
  after_results
  exact W1_arg0 m ρ c
theorem W4_arg1 (c : Dev nD) : W4 m ρ c (Proc.devRef .tc main_arg1) = m ((c : Thread nD τ).loc main_arg1) := by
  show after hostOps1_2 (after hostOps1_1 (after hostOps1 (W1 m ρ c))) (Proc.devRef .tc main_arg1) = _
  after_results
  exact W1_arg1 m ρ c
theorem W4_v9 (c : Dev nD) : W4 m ρ c (Proc.devRef .tc main_v9)
    = accT (W1 m ρ c (Proc.devRef .tc main_v0_0)) (W1 m ρ c (Proc.devRef .tc main_arg2)) := by
  show after hostOps1_2 (after hostOps1_1 (after hostOps1 (W1 m ρ c))) (Proc.devRef .tc main_v9) = _
  after_results
  rfl
theorem W4_v11 (c : Dev nD) : W4 m ρ c (Proc.devRef .tc main_v11)
    = Host.divf (shapeCast S_ (W1 m ρ c (Proc.devRef .tc main_v0_1)) shapeCasts_S1x1_S_) (constant (F := F) S_ .f32 0x4CA00000#32) := by
  show after hostOps1_2 (after hostOps1_1 (after hostOps1 (W1 m ρ c))) (Proc.devRef .tc main_v11) = _
  after_results
  rfl

/-! ## At the return -/

theorem W5_v9 (c : Dev nD) : W5 m ρ c (Proc.devRef .tc main_v9) = W4 m ρ c (Proc.devRef .tc main_v9) :=
  (W5_arr m ρ c 2).trans (((dat1 (V4 m ρ) c).arrAt_in 2 rfl _).trans (A_eq1 (V4 m ρ) c 2))

theorem W6_v11 (c : Dev nD) : W6 m ρ c (Proc.devRef .tc main_v11) = W4 m ρ c (Proc.devRef .tc main_v11) := by
  show after hostOps2 (W5 m ρ c) (Proc.devRef .tc main_v11) = _
  after_results
  exact W5_of_ne m ρ c main_v11 (by decide)
theorem W6_v12 (c : Dev nD) : W6 m ρ c (Proc.devRef .tc main_v12) = (dat1 (V4 m ρ) c).arrAt 3 cfg1.N := by
  show after hostOps2 (W5 m ρ c) (Proc.devRef .tc main_v12) = _
  after_results
  exact W5_arr m ρ c 3
theorem W6_v13 (c : Dev nD) : W6 m ρ c (Proc.devRef .tc main_v13)
    = transpose S40x100 [1, 0] (W4 m ρ c (Proc.devRef .tc main_v9)) transposes_S100x40_S40x100_1_0 := by
  have e : W6 m ρ c (Proc.devRef .tc main_v13)
      = transpose S40x100 [1, 0] (W5 m ρ c (Proc.devRef .tc main_v9)) transposes_S100x40_S40x100_1_0 := by
    show after hostOps2 (W5 m ρ c) (Proc.devRef .tc main_v13) = _
    after_results
  rw [e, W5_v9]

end Cert.KernelIdeal.Glue

end
-- ==== Proof.KernelValue.lean ====
/-
  The idealized kernel program's results in the specification's terms, over the extended reals.

  The loss result is the loss cell over the element count; the new accumulator, transposed back to class-major, is the
  specification's update of each entry by its bin's count; the weights read the bin-major new accumulator at each
  sample's own bin.
-/
import proofs.«148853_j13846974562932_2_alg».proof.Proof.HistTotal
import proofs.«148853_j13846974562932_2_alg».proof.Proof.HostGlue
import Idealize.ShloMosaic.Lib.IdealHost

set_option maxRecDepth 16384

noncomputable section

namespace Cert.KernelIdeal.Value

open Idealize.ShloMosaic Idealize.ShloMosaic.TcCoe Idealize.ShloMosaic.ValueIdx Idealize.SL.Sem Cert.KernelIdeal Cert.KernelIdeal.Gen
open Cert.KernelIdeal.Hist Cert.KernelIdeal.Glue

variable (m : (ℓ : Loc nD τ sig) → Buf (Elt Ideal) ℓ) (ρ : Dev nD → PrngReg)

/-- A transposed [100, 40] array reads, at (class, bin), the operand at (bin, class); and back. -/
theorem transpose_CK_apply {α : Type} (x : S100x40.Idx → α) (cc : Fin 40) (k : Fin 100) :
    transpose S40x100 [1, 0] x transposes_S100x40_S40x100_1_0 (ix2 cc k) = x (ix2 k cc) :=
  transpose_apply _ x _ (ix2 cc k) (ix2 k cc) (fun b => by
    match b with
    | ⟨0, _⟩ => rfl
    | ⟨1, _⟩ => rfl)
theorem transpose_KC_apply {α : Type} (x : S40x100.Idx → α) (k : Fin 100) (cc : Fin 40) :
    transpose S100x40 [1, 0] x transposes_S40x100_S100x40_1_0 (ix2 k cc) = x (ix2 cc k) :=
  transpose_apply _ x _ (ix2 k cc) (ix2 cc k) (fun b => by
    match b with
    | ⟨0, _⟩ => rfl
    | ⟨1, _⟩ => rfl)

/-- The bin-major new accumulator at (bin, class) is the specification's update of the entry by the count there. -/
theorem accT_apply (counts : FVec Ideal S100x40 .f32) (A : FVec Ideal S40x100 .f32) (k : Fin 100) (cc : Fin 40) :
    accT counts A (ix2 k cc) = Cert.Ghm.upd (A (ix2 cc k)) (counts (ix2 k cc)) := by
  unfold accT Cert.Ghm.upd
  rw [select_apply]
  show Scalar.select (Ideal.cmp .ogt (counts (ix2 k cc)) (broadcastInDim S100x40 ![] bcast_S_S100x40 (constant (F := Ideal) S_ .f32 0x00000000#32) (ix2 k cc)))
      (broadcastInDim S100x40 ![] bcast_S_S100x40 (constant (F := Ideal) S_ .f32 0x3F19999A#32) (ix2 k cc)
          * transpose S100x40 [1, 0] A transposes_S40x100_S100x40_1_0 (ix2 k cc)
        + broadcastInDim S100x40 ![] bcast_S_S100x40 (constant (F := Ideal) S_ .f32 0x3ECCCCCD#32) (ix2 k cc) * counts (ix2 k cc))
      (transpose S100x40 [1, 0] A transposes_S40x100_S100x40_1_0 (ix2 k cc)) = _
  rw [broadcastInDim_scalar_apply, broadcastInDim_scalar_apply, broadcastInDim_scalar_apply, transpose_KC_apply]
  rfl

/-- The launch memory read at the first pipeline's entry. -/
theorem V0_eq (c : Dev nD) (b : Ref sig .tc) : V0 m ρ c b = m ((c : Thread nD τ).loc b) := rfl

/-- The counts at the second pipeline's entry. -/
theorem counts_eq (c : Dev nD) (k : Fin 100) (cc : Fin 40) :
    W1 m ρ c (Proc.devRef .tc main_v0_0) (ix2 k cc)
      = Cert.Ghm.cnt (m ((c : Thread nD τ).loc main_arg0)) (m ((c : Thread nD τ).loc main_arg1)) k cc := by
  rw [W1_counts, final_2 (V0 m ρ) c, counts_apply (V0 m ρ) c k cc]

/-- The bin-major new accumulator at the second pipeline's entry, at (bin, class). -/
theorem v9_apply (c : Dev nD) (k : Fin 100) (cc : Fin 40) :
    W4 m ρ c (Proc.devRef .tc main_v9) (ix2 k cc)
      = Cert.Ghm.accNew (m ((c : Thread nD τ).loc main_arg0)) (m ((c : Thread nD τ).loc main_arg1))
          (m ((c : Thread nD τ).loc main_arg2)) cc k := by
  rw [W4_v9, accT_apply, counts_eq, W1_arg2]
  rfl

/-- The new accumulator result. -/
theorem acc_eq (c : Dev nD) : W6 m ρ c (Proc.devRef .tc main_v13)
    = Cert.Ghm.accOut (m ((c : Thread nD τ).loc main_arg0)) (m ((c : Thread nD τ).loc main_arg1))
        (m ((c : Thread nD τ).loc main_arg2)) := by
  funext i
  obtain ⟨cc, k, rfl⟩ : ∃ (cc : Fin 40) (k : Fin 100), i = ix2 cc k := ⟨i 0, i 1, eq_ix2 i⟩
  rw [W6_v13, transpose_CK_apply, v9_apply]
  rfl

/-- The loss result. -/
theorem loss_eq (c : Dev nD) : W6 m ρ c (Proc.devRef .tc main_v11)
    = Cert.Ghm.lossOut (m ((c : Thread nD τ).loc main_arg0)) (m ((c : Thread nD τ).loc main_arg1)) := by
  funext i
  rw [W6_v11, W4_v11, W1_loss, final_3 (V0 m ρ) c]
  show Ideal.div (shapeCast S_ (lossRes (V0 m ρ) c) shapeCasts_S1x1_S_ i) (Ideal.ofBits .f32 0x4CA00000#32) = _
  rw [shapeCast_apply (lossRes (V0 m ρ) c) shapeCasts_S1x1_S_ i (ix2 (0 : Fin 1) (0 : Fin 1)) (by
    have h := (S_.rowMajor i).isLt
    rw [Shape.rowMajor_val_two]
    have h1 : S_.numel = 1 := by decide
    show 0 * 1 + 0 = _
    omega)]
  rw [loss_apply (V0 m ρ) c]
  unfold Cert.Ghm.lossOut
  rw [Ideal.ofBits_zero_f32, zero_add]

end Cert.KernelIdeal.Value

end
-- ==== Proof.WeightsBlock.lean ====
import proofs.«148853_j13846974562932_2_alg».proof.Proof.Gen.KernelIdeal.Frame
import proofs.«148853_j13846974562932_2_alg».proof.Proof.Spec
import Idealize.ShloMosaic.Lib.ValueLayout
import Idealize.ShloMosaic.Lib.KernelVsHost
import Idealize.ShloMosaic.Lib.IdealHost
import Idealize.ShloMosaic.PureOps.Ideal.Laws

/-!
  The second kernel's body, read at one element of its output block.

  At element (r, c) the body computes the bin word b of the element, then the 100-term masked sum
  ((0 + m₀·a₀) + m₁·a₁) + … + m₉₉·a₉₉ with m_k = 1 if b = k and 0 otherwise and a_k the accumulator block's entry (k, c),
  and stores the batch size over that sum. Exactly one mask is 1, because the bin word lies in [0, 99]; over the extended
  reals 0·a = 0 and x + 0 = x hold for every a and x, so the sum is the accumulator entry of the element's own bin.
-/

noncomputable section

namespace Cert.KernelIdeal.Weights

open Idealize.ShloMosaic Idealize.ShloMosaic.ValueIdx
open Cert.KernelIdeal Cert.KernelIdeal.Gen

/-! ## Words and rows at an index -/

/-- The mask word of one element: the comparison bit widened and converted is 1 where the bin word is `k`, 0 elsewhere. -/
theorem mask_word (x k : BitVec 32) :
    (FloatOps.sitofp (F := Ideal) .f32 ((IntOp.cmpi .eq x k).setWidth 32) : EReal) = if x = k then 1 else 0 := by
  show ((((IntOp.cmpi .eq x k).setWidth 32).toInt : ℝ) : EReal) = _
  rw [toInt_setWidth_bit]
  unfold IntOp.cmpi
  by_cases h : x = k
  · simp [h]
  · simp [h]

/-- An integer comparison at an index compares the elements. -/
theorem cmpi_apply {s : Shape} {w : Nat} (p : CmpIPredicate) (x y : IVec s w) (i : s.Idx) :
    cmpi p x y i = IntOp.cmpi p (x i) (y i) := rfl

/-- A one-row slice of the accumulator block starts at a row below 100. -/
theorem row_lt {k : Nat} (h : S100x40.Slices ![k, 0] S1x40) : k < 100 := by
  have := h.2 0
  simpa using this

/-- Row `k` of the accumulator block, cut out as a one-row matrix, reads entry `(k, c)` at column `c`. -/
theorem row_slice (k : Nat) (a : FVec Ideal S100x40 .f32) (h : S100x40.Slices ![k, 0] S1x40) (c : Fin 40) :
    extractStridedSlice S1x40 ![k, 0] a h (ix2 (0 : Fin 1) c) = a (ix2 (⟨k, row_lt h⟩ : Fin 100) c) :=
  slice2_axis0_apply k a h (0 : Fin 1) c ⟨k, row_lt h⟩ rfl

/-! ## The masked sum of the first rows -/

/-- The entry of the row the bin word `b` names, if that row is among the first `n`; zero if not. -/
def sel (b : BitVec 32) (a : Fin 100 → EReal) (n : Nat) : EReal :=
  if hb : b.toNat < n ∧ b.toNat < 100 then a ⟨b.toNat, hb.2⟩ else 0

/-- No row is among the first none. -/
theorem sel_zero (b : BitVec 32) (a : Fin 100 → EReal) : sel b a 0 = 0 :=
  dif_neg fun h => Nat.not_lt_zero _ h.1

/-- One more row: its mask is 1 exactly when the bin word names it, and then no earlier row was named; every other
    row's mask is 0, and `0 · a = 0`, `x + 0 = x`, `0 + x = x` hold for every extended real. -/
theorem sel_succ (b : BitVec 32) (a : Fin 100 → EReal) (n : Nat) (h : n < 100) :
    sel b a n + (if b = BitVec.ofNat 32 n then 1 else 0) * a ⟨n, h⟩ = sel b a (n + 1) := by
  have hn : n < 2 ^ 32 := by omega
  have hiff : b = BitVec.ofNat 32 n ↔ b.toNat = n := by
    constructor
    · rintro rfl
      rw [BitVec.toNat_ofNat, Nat.mod_eq_of_lt hn]
    · intro e
      apply BitVec.eq_of_toNat_eq
      rw [BitVec.toNat_ofNat, Nat.mod_eq_of_lt hn, e]
  unfold sel
  by_cases h1 : b.toNat < n
  · have hne : ¬ b = BitVec.ofNat 32 n := fun e => by rw [hiff] at e; omega
    rw [dif_pos ⟨h1, by omega⟩, if_neg hne, zero_mul, add_zero, dif_pos ⟨by omega, by omega⟩]
  · rw [dif_neg (fun hh => h1 hh.1), zero_add]
    by_cases h2 : b.toNat = n
    · rw [if_pos (hiff.mpr h2), one_mul, dif_pos ⟨by omega, by omega⟩]
      exact congrArg a (Fin.ext h2.symm)
    · rw [if_neg (fun e => h2 (hiff.mp e)), zero_mul, dif_neg (fun hh => by omega)]

/-- The step of the masked sum from a partial sum known to be `sel b a n`. -/
theorem sel_step (b : BitVec 32) (a : Fin 100 → EReal) (n : Nat) (h : n < 100) (acc : EReal) (e : acc = sel b a n) :
    acc + (if b = BitVec.ofNat 32 n then 1 else 0) * a ⟨n, h⟩ = sel b a (n + 1) := by
  rw [e]; exact sel_succ b a n h

/-- All 100 rows: the entry of the row the bin word names, when that word is below 100. -/
theorem sel_all (b : BitVec 32) (a : Fin 100 → EReal) (hb : b.toNat < 100) : sel b a 100 = a ⟨b.toNat, hb⟩ :=
  dif_pos ⟨hb, hb⟩

/-! ## The body's output block at an index -/

/-- The zero offsets of the body's whole-block load and store, as the constant function. -/
theorem hz : (![0, 0] : Fin 2 → Nat) = fun _ => 0 := funext fun a => by fin_cases a <;> rfl

set_option maxHeartbeats 1000000 in
/-- The output block at `(r, c)` is the batch size over the masked sum of all 100 rows: the body's one store covers the
    block; its payload is read through the pointwise operations, the masks and the rows at the index, which leaves the
    100-term sum from zero; the sum is folded from the inside, one row at a time (`sel_step`). -/
theorem out1_3_sel (x0 x1 : Vec Ideal S8192x40 .f32) (x2 : Vec Ideal S100x40 .f32) (r : Fin 8192) (c : Fin 40) :
    Gen.out1_3 (F := Ideal) x0 x1 x2 (ix2 r c)
      = Ideal.div (Ideal.ofBits .f32 0x4A000000#32)
          (sel (k1_pay2 x0 x1 (ix2 r c)) (fun k => x2 (ix2 k c)) 100) := by
  unfold Gen.out1_3
  rw [View.canon_unit_zero hz]
  simp only [View.ld_unit_zero (S := S8192x40) hz, View.ld_unit_zero (S := S100x40) hz]
  simp only [k1_pay3, shapeCast_self, k1_pay1, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44,
    addf_apply, mulf_apply, divf_apply, sitofp_apply, extui_apply, cmpi_apply, broadcast_apply, mask_word,
    broadcastTo_1b_ab_apply, shapeCast_a_1a_apply, shapeCast_1a_a_apply, row_slice, Ideal.ofBits_def, Ideal.ofBits_zero_f32]
  refine congrArg (Ideal.div _) ?_
  iterate 100 (refine sel_step (k1_pay2 x0 x1 (ix2 r c)) (fun k => x2 (ix2 k c)) _ _ _ ?_)
  exact (sel_zero _ _).symm

/-- The kernel's bin word at an element is the specification's: the same operations on the same two entries. -/
theorem bin_word (x0 x1 : Vec Ideal S8192x40 .f32) (i : S8192x40.Idx) :
    k1_pay2 (F := Ideal) x0 x1 i = Cert.Ghm.bin (x0 i) (x1 i) := rfl

/-- THE OUTPUT BLOCK AT `(r, c)`: the batch size over the accumulator block's entry of the element's own bin, in the
    element's column. The bin word is below 100, so the masked sum of all 100 rows is that one entry. -/
theorem out1_3_apply (x0 x1 : Vec Ideal S8192x40 .f32) (x2 : Vec Ideal S100x40 .f32) (r : Fin 8192) (c : Fin 40) :
    Gen.out1_3 (F := Ideal) x0 x1 x2 (ix2 r c)
      = Ideal.div (Ideal.ofBits .f32 0x4A000000#32) (x2 (ix2 (Cert.Ghm.binIx (x0 (ix2 r c)) (x1 (ix2 r c))) c)) := by
  rw [out1_3_sel, bin_word, sel_all _ _ (Cert.Ghm.bin_lt _ _)]
  rfl

/-- The same at a block index not split into its coordinates. -/
theorem out1_3_idx (x0 x1 : Vec Ideal S8192x40 .f32) (x2 : Vec Ideal S100x40 .f32) (j : S8192x40.Idx) :
    Gen.out1_3 (F := Ideal) x0 x1 x2 j
      = Ideal.div (Ideal.ofBits .f32 0x4A000000#32) (x2 (ix2 (Cert.Ghm.binIx (x0 j) (x1 j)) (j 1))) := by
  obtain ⟨r, c, rfl⟩ : ∃ (r : Fin 8192) (c : Fin 40), j = ix2 r c := ⟨j 0, j 1, eq_ix2 j⟩
  exact out1_3_apply x0 x1 x2 r c

end Cert.KernelIdeal.Weights

end
-- ==== Proof.WeightsArray.lean ====
import proofs.«148853_j13846974562932_2_alg».proof.Proof.Gen.KernelIdeal.Frame
import proofs.«148853_j13846974562932_2_alg».proof.Proof.Spec
import proofs.«148853_j13846974562932_2_alg».proof.Proof.WeightsBlock
import Idealize.ShloMosaic.Lib.Pipeline.Value
import Idealize.ShloMosaic.Lib.ValueIdx

/-!
  The second kernel's output array after its 256 grid points.

  Point `t` holds rows `8192 t … 8192 t + 8191` of the two sample arrays and of the output, and the whole new accumulator;
  what it writes back is its block of one whole-array function: the batch size over the accumulator entry of each
  sample's own bin. Every row `R` of the output lies in the block of point `R / 8192`, so the array ends holding that
  function.
-/

noncomputable section

namespace Cert.KernelIdeal.Weights

open Idealize.ShloMosaic Idealize.ShloMosaic.ValueIdx Idealize.ShloMosaic.TcCoe
open Idealize.ShloMosaic.Pipeline (Dat)
open Cert.KernelIdeal Cert.KernelIdeal.Gen

variable (V : (c : Dev nD) → (b : Ref sig .tc) → Buf (Elt Ideal) ((c : Thread nD τ).loc b))

/-- The weights as one function of the arrays the region finds: at sample `i` the batch size over the new
    accumulator's entry of the sample's bin, in the sample's class column. -/
def W (c : Dev nD) : S2097152x40.Idx → EReal := fun i =>
  Ideal.div (Ideal.ofBits .f32 0x4A000000#32)
    ((V c main_v9 : S100x40.Idx → EReal) (ix2 (Cert.Ghm.binIx ((V c main_arg0 : S2097152x40.Idx → EReal) i) ((V c main_arg1 : S2097152x40.Idx → EReal) i)) (i 1)))

/-- The printed index maps, decided over the 256 grid points: windows 0, 1 and 3 are at block row `t`, block column 0;
    window 2 is the whole accumulator at every point. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The output block of point `t` at block index `j` is the weights function at the array index the block puts `j` at. -/
theorem flushed_eq (c : Dev nD) (t : Fin cfg1.N) :
    (dat1 (F := Ideal) V c).flushed 3 t = ((cfg1.win 3).blk t).view.read (Elt Ideal) (W V c) := by
  show (cfg1.win 3).cut (grid1.coords t) ((dat1 (F := Ideal) V c).after 3 t) = _
  rw [after1_3]
  obtain ⟨e00, e01, e10, e11, e20, e21, e30, e31⟩ := idx_facts t
  funext j
  show Gen.out1_3 (F := Ideal) (iblk1 V c 0 t) (iblk1 V c 1 t) (iblk1 V c 2 t) j = W V c (((cfg1.win 3).blk t).view.emb j)
  refine (out1_3_idx (iblk1 V c 0 t) (iblk1 V c 1 t) (iblk1 V c 2 t) j).trans ?_
  have h0 : ((cfg1.win 0).blk t).view.emb j = ((cfg1.win 3).blk t).view.emb j := by
    funext a; apply Fin.ext
    match a with
    | ⟨0, _⟩ => show win1_0.index t (0 : Fin 2) * 8192 + 1 * (j 0).val = win1_3.index t (0 : Fin 2) * 8192 + 1 * (j 0).val; omega
    | ⟨1, _⟩ => show win1_0.index t (1 : Fin 2) * 40 + 1 * (j 1).val = win1_3.index t (1 : Fin 2) * 40 + 1 * (j 1).val; omega
  have h1 : ((cfg1.win 1).blk t).view.emb j = ((cfg1.win 3).blk t).view.emb j := by
    funext a; apply Fin.ext
    match a with
    | ⟨0, _⟩ => show win1_1.index t (0 : Fin 2) * 8192 + 1 * (j 0).val = win1_3.index t (0 : Fin 2) * 8192 + 1 * (j 0).val; omega
    | ⟨1, _⟩ => show win1_1.index t (1 : Fin 2) * 40 + 1 * (j 1).val = win1_3.index t (1 : Fin 2) * 40 + 1 * (j 1).val; omega
  have h2 : ∀ y : S100x40.Idx, ((cfg1.win 2).blk t).view.emb y = y := by
    intro y; funext a; apply Fin.ext
    match a with
    | ⟨0, _⟩ => show win1_2.index t (0 : Fin 2) * 100 + 1 * (y 0).val = (y 0).val; omega
    | ⟨1, _⟩ => show win1_2.index t (1 : Fin 2) * 40 + 1 * (y 1).val = (y 1).val; omega
  have h3 : ((((cfg1.win 3).blk t).view.emb j) 1).val = (j 1).val := by
    show win1_3.index t (1 : Fin 2) * 40 + 1 * (j 1).val = (j 1).val; omega
  show Ideal.div (Ideal.ofBits .f32 0x4A000000#32)
      (V c main_v9 (((cfg1.win 2).blk t).view.emb (ix2 (Cert.Ghm.binIx (V c main_arg0 (((cfg1.win 0).blk t).view.emb j)) (V c main_arg1 (((cfg1.win 1).blk t).view.emb j))) (j 1))))
    = Ideal.div (Ideal.ofBits .f32 0x4A000000#32)
      (V c main_v9 (ix2 (Cert.Ghm.binIx (V c main_arg0 (((cfg1.win 3).blk t).view.emb j)) (V c main_arg1 (((cfg1.win 3).blk t).view.emb j))) ((((cfg1.win 3).blk t).view.emb j) 1)))
  rw [h0, h1, h2]
  have h3' : (j 1 : Fin 40) = ((((cfg1.win 3).blk t).view.emb j) 1 : Fin 40) := Fin.ext h3.symm
  rw [h3']

/-- An index of the output array is in point `t`'s block iff each coordinate is in the block's range on its axis. -/
theorem mem_blk (t : Fin cfg1.N) (i : S2097152x40.Idx) :
    i ∈ ((cfg1.win 3).blk t).view.set ↔ ∀ a : Fin 2, win1_3.index t a * S8192x40.size a ≤ (i a).val ∧ (i a).val < win1_3.index t a * S8192x40.size a + S8192x40.size a := by
  show i ∈ ((View.whole main_v12).slice (win1_3.rect t)).set ↔ _
  rw [View.set_slice_whole, Rect.mem_set_unit]
  exact Iff.rfl

/-- Row `R` of the output lies in the block of point `R / 8192`. -/
theorem covered (i : S2097152x40.Idx) :
    ∃ t : Fin cfg1.N, (cfg1.win 3).flush t = true ∧ i ∈ ((cfg1.win 3).blk t).view.set := by
  have hi0 : (i 0).val < 2097152 := (i 0).isLt
  have hi1 : (i 1).val < 40 := (i 1).isLt
  have hN : cfg1.N = 256 := N_1
  let t : Fin cfg1.N := ⟨(i 0).val / 8192, by rw [hN]; omega⟩
  obtain ⟨-, -, -, -, -, -, e30, e31⟩ := idx_facts t
  have ht : t.val = (i 0).val / 8192 := rfl
  refine ⟨t, flush1_3 t, ?_⟩
  rw [mem_blk]
  intro a
  match a with
  | ⟨0, _⟩ => show win1_3.index t (0 : Fin 2) * 8192 ≤ (i 0).val ∧ (i 0).val < win1_3.index t (0 : Fin 2) * 8192 + 8192; omega
  | ⟨1, _⟩ => show win1_3.index t (1 : Fin 2) * 40 ≤ (i 1).val ∧ (i 1).val < win1_3.index t (1 : Fin 2) * 40 + 40; omega

/-- THE OUTPUT ARRAY after the 256 points: the weights function of the arrays the region finds. -/
theorem weights_array (c : Dev nD) :
    (Gen.dat1 (F := Ideal) V c).arrAt 3 cfg1.N
      = fun i => Ideal.div (Ideal.ofBits .f32 0x4A000000#32)
          (V c main_v9 (ix2 (Cert.Ghm.binIx (V c main_arg0 i) (V c main_arg1 i)) (i 1))) :=
  (dat1 (F := Ideal) V c).arrAt_eq_of_cover 3 (W V c) (fun t _ => flushed_eq V c t) covered

end Cert.KernelIdeal.Weights

end
-- ==== Proof.KernelWeights.lean ====
/-
  The weights result in the specification's terms: each sample's weight is the batch size over the new accumulator's entry
  at the sample's own bin — the second pipeline reads the bin-major new accumulator the host formed from the first
  pipeline's counts, and the logits and targets as launched.
-/
import proofs.«148853_j13846974562932_2_alg».proof.Proof.KernelValue
import proofs.«148853_j13846974562932_2_alg».proof.Proof.WeightsArray

set_option maxRecDepth 16384

noncomputable section

namespace Cert.KernelIdeal.Value

open Idealize.ShloMosaic Idealize.ShloMosaic.TcCoe Idealize.ShloMosaic.ValueIdx Idealize.SL.Sem Cert.KernelIdeal Cert.KernelIdeal.Gen
open Cert.KernelIdeal.Hist Cert.KernelIdeal.Glue

variable (m : (ℓ : Loc nD τ sig) → Buf (Elt Ideal) ℓ) (ρ : Dev nD → PrngReg)

/-- The weights result. -/
theorem weights_eq (c : Dev nD) : W6 m ρ c (Proc.devRef .tc main_v12)
    = Cert.Ghm.weightOut (m ((c : Thread nD τ).loc main_arg0)) (m ((c : Thread nD τ).loc main_arg1))
        (m ((c : Thread nD τ).loc main_arg2)) := by
  rw [W6_v12, Cert.KernelIdeal.Weights.weights_array (V4 m ρ) c]
  funext i
  obtain ⟨r, cc, rfl⟩ : ∃ (r : Fin 2097152) (cc : Fin 40), i = ix2 r cc := ⟨i 0, i 1, eq_ix2 i⟩
  show Ideal.div (Ideal.ofBits .f32 0x4A000000#32)
      (W4 m ρ c (Proc.devRef .tc main_v9)
        (ix2 (Cert.Ghm.binIx (W4 m ρ c (Proc.devRef .tc main_arg0) (ix2 r cc)) (W4 m ρ c (Proc.devRef .tc main_arg1) (ix2 r cc))) cc)) = _
  rw [W4_arg0, W4_arg1, v9_apply]
  rfl

end Cert.KernelIdeal.Value

end
-- ==== Proof.LibFlatScatter.lean ====
/-
  The scatter-add of a flat histogram, read at an index.

  A one-axis operand of `N` entries receives `M` updates; update `j` carries one start index, the word the
  scatter indices hold at `(j, 0)`, read signed and not clamped. The update lands at entry `i` exactly when that
  signed integer is `i`; an update whose integer is outside `[0, N)` is dropped. So entry `i` of the result is the
  operand's entry plus the sum of the updates whose word reads `i`.
-/
import Idealize.ShloMosaic.PureOps.Ideal
import Idealize.ShloMosaic.PureOps.Ideal.Laws
import Idealize.ShloMosaic.Lib.ValueIdx

noncomputable section

namespace Cert.ReferenceIdeal.RefValue

open Idealize.ShloMosaic Idealize.ShloMosaic.ValueIdx
open scoped BigOperators

/-- The dimension numbers of `x.at[idx].add(u)` for a flat `x : [N]`, `idx : [M, 1]`, `u : [M]`. -/
abbrev flatScatterDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- The scatter-indices index `(j, 0)` of update `j`. -/
abbrev flatSi {M : Nat} (j : (⟨1, ![M]⟩ : Shape).Idx) : (⟨2, ![M, 1]⟩ : Shape).Idx :=
  ix2 (n0 := M) (n1 := 1) ⟨(j 0).val, (j 0).isLt⟩ ⟨0, Nat.one_pos⟩

section
variable {N M w : Nat} (wf : ScatterDims.WF ⟨1, ![N]⟩ ⟨2, ![M, 1]⟩ ⟨1, ![M]⟩ [] [0] [0] 1)

/-- The start of update `j` on the one operand axis is its word read signed. -/
theorem flatScatter_start (idx : IVec ⟨2, ![M, 1]⟩ w) (j : (⟨1, ![M]⟩ : Shape).Idx) (a : Fin 1) :
    (flatScatterDims N M wf).start j idx a = (idx (flatSi j)).toInt := by
  obtain rfl : a = 0 := Subsingleton.elim _ _
  unfold ScatterDims.start
  rw [dif_pos (show (0 : Fin 1) ∈ (flatScatterDims N M wf).scatterDimsToOperandDims from List.mem_singleton.mpr rfl)]
  have hsi : (flatScatterDims N M wf).siIdx j ⟨List.idxOf (0 : Fin 1) (flatScatterDims N M wf).scatterDimsToOperandDims,
      List.idxOf_lt_length_iff.2 (List.mem_singleton.mpr rfl)⟩ = flatSi j := by
    funext b; refine Fin.ext ?_
    match b with
    | ⟨0, _⟩ => rfl
    | ⟨1, _⟩ => rfl
  rw [hsi]

/-- There is no window axis: the window coordinate is zero. -/
theorem flatScatter_window (j : (⟨1, ![M]⟩ : Shape).Idx) (a : Fin 1) :
    (flatScatterDims N M wf).window j a = 0 := by
  obtain rfl : a = 0 := Subsingleton.elim _ _
  unfold ScatterDims.window
  rw [dif_neg]
  intro h
  have : (0 : Fin 1) ∉ [(0 : Fin 1)] := (List.mem_filter.1 h).2 |> of_decide_eq_true
  exact this (List.mem_singleton.mpr rfl)

/-- Update `j` lands at entry `i` exactly when its word, read signed, is `i`. -/
theorem flatScatter_resultIdx (idx : IVec ⟨2, ![M, 1]⟩ w) (j : (⟨1, ![M]⟩ : Shape).Idx) (i : (⟨1, ![N]⟩ : Shape).Idx) :
    (flatScatterDims N M wf).resultIdx? j idx = some i ↔ (idx (flatSi j)).toInt = ((i 0).val : Int) := by
  unfold ScatterDims.resultIdx?
  have hi : (i 0).val < N := (i 0).isLt
  split
  · rename_i h
    have h0 := h 0
    rw [flatScatter_start, flatScatter_window] at h0
    constructor
    · intro e
      have e' := congrFun (Option.some.inj e) 0
      have e'' := congrArg Fin.val e'
      simp only [flatScatter_start, flatScatter_window] at e''
      omega
    · intro e
      congr 1
      funext a
      obtain rfl : a = 0 := Subsingleton.elim _ _
      refine Fin.ext ?_
      simp only [flatScatter_start, flatScatter_window]
      omega
  · rename_i h
    constructor
    · intro e; exact absurd e (by simp)
    · intro e
      exfalso; apply h
      intro a
      obtain rfl : a = 0 := Subsingleton.elim _ _
      rw [flatScatter_start, flatScatter_window, e]
      show 0 ≤ ((i 0).val : Int) + ((0 : Nat) : Int) ∧ ((i 0).val : Int) + ((0 : Nat) : Int) < (N : Int)
      omega

/-- **The flat scatter-add read at an entry**: the operand's entry plus the updates whose word reads that entry. -/
theorem flatScatterAdd_apply (x : (⟨1, ![N]⟩ : Shape).Idx → EReal) (idx : IVec ⟨2, ![M, 1]⟩ w)
    (upd : (⟨1, ![M]⟩ : Shape).Idx → EReal) (i : (⟨1, ![N]⟩ : Shape).Idx) :
    Ideal.hostScatterAdd (flatScatterDims N M wf) x idx upd i
      = x i + ∑ j : (⟨1, ![M]⟩ : Shape).Idx, if (idx (flatSi j)).toInt = ((i 0).val : Int) then upd j else 0 := by
  unfold Ideal.hostScatterAdd
  rw [Finset.sum_filter]
  congr 1
  refine Finset.sum_congr rfl fun j _ => ?_
  simp only [flatScatter_resultIdx]

end

/-! ## The flat sum over `R * C` updates as a double sum -/

/-- A sum over the flat update index `u < M = R * C` is the double sum over `(r, c)` with `u = c + C * r`. -/
theorem sum_flat_eq_double {R C M : Nat} (hM : R * C = M) (f : (⟨1, ![M]⟩ : Shape).Idx → EReal) :
    ∑ j : (⟨1, ![M]⟩ : Shape).Idx, f j
      = ∑ r : Fin R, ∑ c : Fin C, f (ix1 (n := M) ⟨c.val + C * r.val, by
          have := r.isLt; have := c.isLt
          calc c.val + C * r.val < C + C * r.val := by omega
            _ = C * (r.val + 1) := by ring
            _ ≤ C * R := Nat.mul_le_mul_left _ (by omega)
            _ = M := by rw [Nat.mul_comm]; exact hM⟩) := by
  subst hM
  let e : (⟨1, ![R * C]⟩ : Shape).Idx ≃ Fin R × Fin C :=
    { toFun := fun j => finProdFinEquiv.symm ⟨(j 0).val, (j 0).isLt⟩
      invFun := fun p => ix1 (n := R * C) (finProdFinEquiv p)
      left_inv := fun j => by
        funext a; match a with
        | ⟨0, _⟩ => exact Fin.ext (by simp; exact Nat.mod_add_div _ _)
      right_inv := fun p => by
        show finProdFinEquiv.symm (finProdFinEquiv p) = p
        exact Equiv.symm_apply_apply _ _ }
  rw [← Finset.sum_product', ← e.symm.sum_comp]
  rfl

/-! ## The words of the flat index -/

/-- `c · 100 + b` as 32-bit words, for a class `c < 40` and a bin word `b < 100`, does not wrap. -/
theorem flatWord_toNat (c : Nat) (hc : c < 40) (b : BitVec 32) (hb : b.toNat < 100) :
    (IntOp.addi (IntOp.muli (BitVec.ofNat 32 c) 100#32) b).toNat = c * 100 + b.toNat := by
  unfold IntOp.addi IntOp.muli
  rw [BitVec.toNat_add, BitVec.toNat_mul, BitVec.toNat_ofNat]
  have h100 : (100#32 : BitVec 32).toNat = 100 := rfl
  rw [h100]
  omega

/-- A word below `2^31` reads signed as its natural number. -/
theorem toInt_of_lt (f : BitVec 32) (h : f.toNat < 2147483648) : f.toInt = (f.toNat : Int) := by
  rw [BitVec.toInt_eq_toNat_cond, if_pos (by omega)]

/-- A word below `2^31` is not negative, so the negative-index wrap `select (f < 0) (f + n) f` keeps it. -/
theorem wrapSelect_of_lt (f n : BitVec 32) (h : f.toNat < 2147483648) :
    Scalar.select (IntOp.cmpi .slt f 0#32) (IntOp.addi f n) f = f := by
  have hs : f.slt 0#32 = false := by
    rw [BitVec.slt, toInt_of_lt f h]
    simp
  have hc : IntOp.cmpi .slt f 0#32 = 0#1 := by
    show BitVec.ofBool (f.slt 0#32) = 0#1
    rw [hs]; rfl
  rw [hc, select_zero]

end Cert.ReferenceIdeal.RefValue

end
-- ==== Proof.LibPairGather.lean ====
/-
  A two-component gather of a matrix, read at an index, and the two-piece concatenation that builds its start indices.

  `x[i0, i1]` for a matrix `x : [A, B]` and two integer arrays of shape `[R, C]` lowers to a gather whose start indices are
  the two arrays laid side by side on a last axis of extent two. Result element `(r, c)` is the matrix at the pair of start
  components read signed and clamped into `[0, A − 1] × [0, B − 1]`.
-/
import Idealize.ShloMosaic.PureOps.Ideal
import Idealize.ShloMosaic.Lib.ValueIdx
import Idealize.ShloMosaic.Lib.Pipeline.Value

noncomputable section

namespace Cert.ReferenceIdeal.RefValue

open Idealize.ShloMosaic Idealize.ShloMosaic.ValueIdx

section PairGather
variable {α : Type}

/-- The dimension numbers of `x[i0, i1]` for `x : [A, B]`, start indices `[R, C, 2]`, result `[R, C]`. -/
abbrev pairGatherDims (A B R C : Nat)
    (wf : GatherDims.WF ⟨2, ![A, B]⟩ ⟨3, ![R, C, 2]⟩ ⟨2, ![R, C]⟩ [] [0, 1] [] [0, 1] [] 2 ![1, 1]) :
    GatherDims ⟨2, ![A, B]⟩ ⟨3, ![R, C, 2]⟩ ⟨2, ![R, C]⟩ where
  offsetDims := []
  collapsedSliceDims := [0, 1]
  operandBatchingDims := []
  startIndicesBatchingDims := []
  startIndexMap := [0, 1]
  indexVectorDim := 2
  sliceSizes := ![1, 1]
  wf := wf

/-- The start-indices index `(r, c, k)` of result index `(r, c)` and component `k`. -/
abbrev pairIdx {R C : Nat} (y : (⟨2, ![R, C]⟩ : Shape).Idx) (k : Fin 2) : (⟨3, ![R, C, 2]⟩ : Shape).Idx :=
  ix3 (n0 := R) (n1 := C) (n2 := 2) ⟨(y 0).val, idx2_lt0 y⟩ ⟨(y 1).val, idx2_lt1 y⟩ k

/-- The first start component of result index `y`: the word at `(r, c, 0)`, read signed and clamped into `[0, A − 1]`. -/
theorem pairGather_start0 {A B R C w : Nat}
    (wf : GatherDims.WF ⟨2, ![A, B]⟩ ⟨3, ![R, C, 2]⟩ ⟨2, ![R, C]⟩ [] [0, 1] [] [0, 1] [] 2 ![1, 1])
    (idx : IVec ⟨3, ![R, C, 2]⟩ w) (y : (⟨2, ![R, C]⟩ : Shape).Idx) :
    (pairGatherDims A B R C wf).start y idx (0 : Fin 2) = min (idx (pairIdx y 0)).toInt.toNat (A - 1) := by
  unfold GatherDims.start
  have h0 : (0 : Fin 2) ∈ (pairGatherDims A B R C wf).startIndexMap := List.mem_cons_self
  rw [dif_pos h0]
  have hsi : (pairGatherDims A B R C wf).siIdx y ⟨List.idxOf (0 : Fin 2) (pairGatherDims A B R C wf).startIndexMap,
      List.idxOf_lt_length_iff.2 h0⟩ = pairIdx y 0 := by
    funext b; refine Fin.ext ?_
    match b with
    | ⟨0, _⟩ => rfl
    | ⟨1, _⟩ => rfl
    | ⟨2, _⟩ => rfl
  rw [hsi]
  rfl

/-- The second start component: the word at `(r, c, 1)`, read signed and clamped into `[0, B − 1]`. -/
theorem pairGather_start1 {A B R C w : Nat}
    (wf : GatherDims.WF ⟨2, ![A, B]⟩ ⟨3, ![R, C, 2]⟩ ⟨2, ![R, C]⟩ [] [0, 1] [] [0, 1] [] 2 ![1, 1])
    (idx : IVec ⟨3, ![R, C, 2]⟩ w) (y : (⟨2, ![R, C]⟩ : Shape).Idx) :
    (pairGatherDims A B R C wf).start y idx (1 : Fin 2) = min (idx (pairIdx y 1)).toInt.toNat (B - 1) := by
  unfold GatherDims.start
  have h1 : (1 : Fin 2) ∈ (pairGatherDims A B R C wf).startIndexMap := List.mem_cons_of_mem _ List.mem_cons_self
  rw [dif_pos h1]
  have hsi : (pairGatherDims A B R C wf).siIdx y ⟨List.idxOf (1 : Fin 2) (pairGatherDims A B R C wf).startIndexMap,
      List.idxOf_lt_length_iff.2 h1⟩ = pairIdx y 1 := by
    funext b; refine Fin.ext ?_
    match b with
    | ⟨0, _⟩ => rfl
    | ⟨1, _⟩ => rfl
    | ⟨2, _⟩ => rfl
  rw [hsi]
  rfl

/-- **The gather read at `(r, c)`**: the matrix at the two start components, each read signed and clamped. -/
theorem pairGather_apply {A B R C w : Nat} (hA : 0 < A) (hB : 0 < B)
    (wf : GatherDims.WF ⟨2, ![A, B]⟩ ⟨3, ![R, C, 2]⟩ ⟨2, ![R, C]⟩ [] [0, 1] [] [0, 1] [] 2 ![1, 1])
    (x : (⟨2, ![A, B]⟩ : Shape).Idx → α) (idx : IVec ⟨3, ![R, C, 2]⟩ w) (y : (⟨2, ![R, C]⟩ : Shape).Idx) :
    Host.gather (pairGatherDims A B R C wf) x idx y
      = x (ix2 (n0 := A) (n1 := B) ⟨min (idx (pairIdx y 0)).toInt.toNat (A - 1), by omega⟩
            ⟨min (idx (pairIdx y 1)).toInt.toNat (B - 1), by omega⟩) := by
  unfold Host.gather
  congr 1
  funext a
  refine Fin.ext ?_
  show (pairGatherDims A B R C wf).start y idx a + (pairGatherDims A B R C wf).batchCoord y a
      + (pairGatherDims A B R C wf).offCoord y a = _
  have hmem : a ∈ (pairGatherDims A B R C wf).collapsedSliceDims := by
    match a with
    | ⟨0, _⟩ => exact List.mem_cons_self
    | ⟨1, _⟩ => exact List.mem_cons_of_mem _ List.mem_cons_self
  rw [GatherDims.batchCoord_eq_zero _ _ _ List.not_mem_nil,
    GatherDims.offCoord_eq_zero _ _ _ (fun h => ((GatherDims.mem_sKept _ _).mp h).1 hmem)]
  simp only [Nat.add_zero]
  match a with
  | ⟨0, _⟩ => exact pairGather_start0 wf idx y
  | ⟨1, _⟩ => exact pairGather_start1 wf idx y

end PairGather

/-- A start component inside `[0, n)` below `2^31` is read as itself: signed, then clamped, changes nothing. -/
theorem clampStart_of_lt (f : BitVec 32) (n : Nat) (hn : f.toNat < n) (h31 : n ≤ 2147483648) :
    min f.toInt.toNat (n - 1) = f.toNat := by
  have : f.toInt = (f.toNat : Int) := by
    rw [BitVec.toInt_eq_toNat_cond, if_pos (by omega)]
  rw [this, Int.toNat_natCast]
  omega

end Cert.ReferenceIdeal.RefValue

end
-- ==== Proof.RefValue.lean ====
/-
  The reference computes the specification.

  The three results of the reference — the mean loss, the new per-(class, bin) accumulator and the per-sample weights —
  are, index by index, the functions `Cert.Ghm.lossOut`, `accOut` and `weightOut` of the inputs.

  * loss: the reduction over both axes is the initial zero plus the sum over every index of the elementwise loss.
  * accumulator: the histogram is a scatter-add of ones at the flat index `class · 100 + bin`. The class is below 40 and
    the bin is clipped to `[0, 99]`, so the flat index neither wraps nor is negative and lies below 4000; an update lands at
    entry `100 c + k` exactly when its class is `c` and its bin is `k`. Summing the updates row by row leaves, per row, the
    indicator that the row's class-`c` sample is in bin `k`: the count `cnt k c`.
  * weights: the gather's start pair at `(r, c)` is `(c, bin)`, both in range, so it reads the new accumulator at the
    sample's own class and bin.
-/
import proofs.«148853_j13846974562932_2_alg».proof.Proof.RefReadP
import proofs.«148853_j13846974562932_2_alg».proof.Proof.Spec
import proofs.«148853_j13846974562932_2_alg».proof.Proof.LibFlatScatter
import proofs.«148853_j13846974562932_2_alg».proof.Proof.LibPairGather

noncomputable section

namespace Cert.ReferenceIdeal.RefValue

open Cert.ReferenceIdeal Cert.ReferenceIdeal.Gen Idealize.ShloMosaic Idealize.ShloMosaic.ValueIdx
open Cert.ReferenceIdeal.ReadP
open scoped BigOperators

/-! ## The elementwise chains -/

/-- The f32 pattern of one, as the reference's instance spells it. -/
theorem one_bits : (FloatOps.ofBits (F := Ideal) .f32 0x3F800000#32) = (1 : EReal) := Ideal.ofBits_one_f32

/-- The f32 pattern of zero, as the reference's instance spells it. -/
theorem zero_bits : (FloatOps.ofBits (F := Ideal) .f32 0x00000000#32) = (0 : EReal) := Ideal.ofBits_zero_f32

/-- One element of the loss. -/
theorem ref_elemLoss (x0 x1 : Cert.Ghm.SBC.Idx → EReal) (j : Cert.Ghm.SBC.Idx) :
    val_main_v64 (F := Ideal) x0 x1 j = Cert.Ghm.elemLoss (x0 j) (x1 j) := by
  rw [val_main_v64_apply, val_main_v59_apply, val_main_v57_apply, val_main_v56_apply, val_main_cst_16_apply,
    val_main_v58_apply, val_main_v63_apply, val_main_v62_apply, val_main_v61_apply, val_main_v60_apply]
  rfl

/-- One sample's bin. -/
theorem ref_bin (x0 x1 : Cert.Ghm.SBC.Idx → EReal) (i : Cert.Ghm.SBC.Idx) :
    val_main_v11 (F := Ideal) x0 x1 i = Cert.Ghm.bin (x0 i) (x1 i) := by
  rw [val_main_v11_apply, val_main_call0_v4_apply, val_main_call0_v3_apply, val_main_c_2_apply,
    val_main_call0_v2_apply, val_main_call0_v1_apply, val_main_call0_v0_apply, val_main_c_apply,
    val_main_v10_apply, val_main_v9_apply, val_main_v8_apply, val_main_cst_1_apply,
    val_main_v7_apply, val_main_v6_apply, val_main_v5_apply, val_main_v4_apply, val_main_cst_0_apply,
    val_main_v3_apply, val_main_v2_apply, val_main_cst_apply, val_main_v1_apply, val_main_v0_apply]
  rw [one_bits]
  rfl

/-! ## The loss -/

theorem ref_loss (x0 x1 : Cert.Ghm.SBC.Idx → EReal) :
    val_main_v66 (F := Ideal) x0 x1 = Cert.Ghm.lossOut x0 x1 := by
  funext i
  rw [val_main_v66_apply, val_main_v65_apply, val_main_cst_17_apply, val_main_cst_18_apply]
  unfold Cert.Ghm.lossOut
  have hs : (∑ j : S2097152x40.Idx, val_main_v64 (F := Ideal) x0 x1 j)
      = ∑ j : Cert.Ghm.SBC.Idx, Cert.Ghm.elemLoss (x0 j) (x1 j) :=
    Finset.sum_congr rfl fun j _ => ref_elemLoss x0 x1 j
  rw [hs]
  generalize (∑ j : Cert.Ghm.SBC.Idx, Cert.Ghm.elemLoss (x0 j) (x1 j)) = S
  rfl

/-! ## The histogram -/

/-- The flat index word of the update `(r, c)`: `c · 100 + bin`, kept by the negative-index wrap. -/
theorem ref_flat (x0 x1 : Cert.Ghm.SBC.Idx → EReal) (r : Fin 2097152) (c : Fin 40) :
    val_main_v24 (F := Ideal) x0 x1 (ix1 (n := 83886080) ⟨c.val + 40 * r.val, by have := r.isLt; have := c.isLt; omega⟩)
      = IntOp.addi (IntOp.muli (BitVec.ofNat 32 c.val) 100#32) (Cert.Ghm.bin (x0 (ix2 r c)) (x1 (ix2 r c))) := by
  have hlt : c.val + 40 * r.val < 83886080 := by have := r.isLt; have := c.isLt; omega
  have hidx : idx_main_v18 (ix1 (n := 83886080) ⟨c.val + 40 * r.val, hlt⟩) = ix2 r c := by
    funext a
    match a with
    | ⟨0, _⟩ => exact Fin.ext (by show (c.val + 40 * r.val) / 40 = r.val; have := c.isLt; omega)
    | ⟨1, _⟩ => exact Fin.ext (by show (c.val + 40 * r.val) % 40 = c.val; have := c.isLt; omega)
  have h18 : val_main_v18 (F := Ideal) x0 x1 (ix1 (n := 83886080) ⟨c.val + 40 * r.val, hlt⟩)
      = IntOp.addi (IntOp.muli (BitVec.ofNat 32 c.val) 100#32) (Cert.Ghm.bin (x0 (ix2 r c)) (x1 (ix2 r c))) := by
    rw [val_main_v18_apply, hidx, val_main_v17_apply, ref_bin, val_main_v16_apply, val_main_v15_apply,
      val_main_v13_apply, val_main_v12_apply, val_main_v14_apply, val_main_c_3_apply]
  rw [val_main_v24_apply, val_main_v21_apply, val_main_v23_apply, val_main_v20_apply, val_main_c_5_apply, h18]
  refine wrapSelect_of_lt _ _ ?_
  rw [flatWord_toNat _ c.isLt _ (Cert.Ghm.bin_lt _ _)]
  have := c.isLt; have := Cert.Ghm.bin_lt (x0 (ix2 r c)) (x1 (ix2 r c)); omega

/-- Within one row, the updates that land at entry `100 c + k` are the class-`c` sample when its bin is `k`. -/
theorem sum_class_ind (b : Fin 40 → BitVec 32) (hb : ∀ c', (b c').toNat < 100) (c : Fin 40) (k : Fin 100) :
    (∑ c' : Fin 40, if (((c'.val * 100 + (b c').toNat : Nat) : Int) = ((c.val * 100 + k.val : Nat) : Int)) then (1 : EReal) else 0)
      = Cert.Ghm.ind (b c) k.val := by
  rw [Finset.sum_eq_single c]
  · unfold Cert.Ghm.ind
    by_cases h : b c = BitVec.ofNat 32 k.val
    · rw [if_pos h, if_pos]
      have : (b c).toNat = k.val := by
        rw [h, BitVec.toNat_ofNat]; have := k.isLt; omega
      omega
    · rw [if_neg h, if_neg]
      intro e
      apply h
      apply BitVec.eq_of_toNat_eq
      rw [BitVec.toNat_ofNat]
      have := k.isLt
      omega
  · intro c' _ hne
    rw [if_neg]
    intro e
    apply hne
    apply Fin.ext
    have := hb c'; have := k.isLt
    omega
  · intro h; exact absurd (Finset.mem_univ c) h

/-- At the exact instance the host's scatter-add is the exact sum (any shapes). -/
theorem scatterAdd_ideal {s si u : Shape} {w : Nat} {φ : FTy} (d : ScatterDims s si u) (x : FVec Ideal s φ)
    (idx : IVec si w) (upd : FVec Ideal u φ) :
    Host.scatterAdd d x idx upd = Ideal.hostScatterAdd d x idx upd := rfl

/-- The histogram stage is the scatter-add of its three operands. -/
theorem v27_eq (x0 x1 : Cert.Ghm.SBC.Idx → EReal) :
    val_main_v27 (F := Ideal) x0 x1
      = Host.scatterAdd (F := Ideal) (φ := .f32) scatter_S4000_S83886080x1_S83886080_n_0_0_1 (val_main_v19 (F := Ideal))
          (val_main_v25 (F := Ideal) x0 x1) (val_main_v26 (F := Ideal)) := rfl

/-- The reference's scatter dimension numbers are the flat ones. -/
theorem scatterDims_eq : scatter_S4000_S83886080x1_S83886080_n_0_0_1
    = flatScatterDims 4000 83886080 Facts₀.scatter_S4000_S83886080x1_S83886080_n_0_0_1_wf := rfl

/-- **The histogram**: entry `100 c + k` of the scatter-add is the count of class-`c` samples in bin `k`. -/
theorem ref_counts (x0 x1 : Cert.Ghm.SBC.Idx → EReal) (c : Fin 40) (k : Fin 100) :
    val_main_v27 (F := Ideal) x0 x1 (ix1 (n := 4000) ⟨c.val * 100 + k.val, by have := c.isLt; have := k.isLt; omega⟩)
      = Cert.Ghm.cnt x0 x1 k c := by
  have hupd : ∀ j, val_main_v26 (F := Ideal) j = (1 : EReal) := fun j => by
    rw [val_main_v26_apply, val_main_cst_7_apply, one_bits]
  have hword : ∀ (r : Fin 2097152) (c' : Fin 40),
      (val_main_v25 (F := Ideal) x0 x1 (flatSi (ix1 (n := 83886080) ⟨c'.val + 40 * r.val, by have := r.isLt; have := c'.isLt; omega⟩))).toInt
        = ((c'.val * 100 + (Cert.Ghm.bin (x0 (ix2 r c')) (x1 (ix2 r c'))).toNat : Nat) : Int) := fun r c' => by
    have hlt : c'.val + 40 * r.val < 83886080 := by have := r.isLt; have := c'.isLt; omega
    have hi : idx_main_v25 (flatSi (ix1 (n := 83886080) ⟨c'.val + 40 * r.val, hlt⟩)) = ix1 (n := 83886080) ⟨c'.val + 40 * r.val, hlt⟩ := by
      funext a
      match a with
      | ⟨0, _⟩ => rfl
    have hb := Cert.Ghm.bin_lt (x0 (ix2 r c')) (x1 (ix2 r c'))
    have hn := flatWord_toNat c'.val c'.isLt _ hb
    rw [val_main_v25_apply, hi, ref_flat, toInt_of_lt _ (by rw [hn]; have := c'.isLt; omega), hn]
  rw [v27_eq, scatterAdd_ideal, scatterDims_eq]
  rw [flatScatterAdd_apply, val_main_v19_apply, val_main_cst_4_apply, zero_bits, zero_add,
    sum_flat_eq_double (R := 2097152) (C := 40) (M := 83886080) (by norm_num)]
  beta_reduce
  unfold Cert.Ghm.cnt
  refine Finset.sum_congr rfl fun r _ => ?_
  refine Eq.trans ?_ (sum_class_ind (fun c' => Cert.Ghm.bin (x0 (ix2 r c')) (x1 (ix2 r c'))) (fun c' => Cert.Ghm.bin_lt _ _) c k)
  refine Finset.sum_congr rfl fun c' _ => ?_
  rw [hword r c', hupd]

/-! ## The accumulator -/

theorem ref_acc (x0 x1 : Cert.Ghm.SBC.Idx → EReal) (x2 : Cert.Ghm.SCK.Idx → EReal) :
    val_main_v36 (F := Ideal) x0 x1 x2 = Cert.Ghm.accOut x0 x1 x2 := by
  funext i
  obtain ⟨c, k, rfl⟩ : ∃ (c : Fin 40) (k : Fin 100), i = ix2 c k := ⟨i 0, i 1, eq_ix2 i⟩
  have hidx : idx_main_v28 (ix2 c k) = ix1 (n := 4000) ⟨c.val * 100 + k.val, by have := c.isLt; have := k.isLt; omega⟩ := by
    funext a
    match a with
    | ⟨0, _⟩ => rfl
  have h28 : val_main_v28 (F := Ideal) x0 x1 (ix2 c k) = Cert.Ghm.cnt x0 x1 k c := by
    rw [val_main_v28_apply, hidx, ref_counts]
  rw [val_main_v36_apply, val_main_v30_apply, val_main_v35_apply, val_main_v32_apply, val_main_v34_apply, h28,
    val_main_v29_apply, val_main_cst_8_apply, val_main_v31_apply, val_main_cst_9_apply, val_main_v33_apply,
    val_main_cst_10_apply]
  rfl

/-! ## The weights -/

/-- The start indices: the class words and the bin words side by side on a last axis of extent two. -/
theorem v52_eq (x0 x1 : Cert.Ghm.SBC.Idx → EReal) :
    val_main_v52 (F := Ideal) x0 x1
      = concatenate S2097152x40x2 2 [⟨S2097152x40x1, (val_main_v50 (F := Ideal))⟩, ⟨S2097152x40x1, (val_main_v51 (F := Ideal) x0 x1)⟩]
          Facts₀.concatenates_S2097152x40x1_S2097152x40x1_S2097152x40x2_d2 := rfl

/-- The first start component at `(r, c)` is the class stage at `(r, c, 0)`. -/
theorem v52_at0 (x0 x1 : Cert.Ghm.SBC.Idx → EReal) (r : Fin 2097152) (c : Fin 40) :
    val_main_v52 (F := Ideal) x0 x1 (ix3 (n0 := 2097152) (n1 := 40) (n2 := 2) r c 0)
      = val_main_v50 (F := Ideal) (ix3 (n0 := 2097152) (n1 := 40) (n2 := 1) r c 0) := by
  rw [v52_eq]
  exact concatenate_pair_apply_left (t := S2097152x40x2) (s₁ := S2097152x40x1) (s₂ := S2097152x40x1) (2 : Fin 3)
    (val_main_v50 (F := Ideal)) (val_main_v51 (F := Ideal) x0 x1)
    Facts₀.concatenates_S2097152x40x1_S2097152x40x1_S2097152x40x2_d2
    (ix3 (n0 := 2097152) (n1 := 40) (n2 := 2) r c 0) rfl (ix3 (n0 := 2097152) (n1 := 40) (n2 := 1) r c 0)
    (fun b => match b with
      | ⟨0, _⟩ => rfl
      | ⟨1, _⟩ => rfl
      | ⟨2, _⟩ => rfl)

/-- The second start component at `(r, c)` is the bin stage at `(r, c, 0)`. -/
theorem v52_at1 (x0 x1 : Cert.Ghm.SBC.Idx → EReal) (r : Fin 2097152) (c : Fin 40) :
    val_main_v52 (F := Ideal) x0 x1 (ix3 (n0 := 2097152) (n1 := 40) (n2 := 2) r c 1)
      = val_main_v51 (F := Ideal) x0 x1 (ix3 (n0 := 2097152) (n1 := 40) (n2 := 1) r c 0) := by
  rw [v52_eq]
  exact concatenate_pair_apply_right (t := S2097152x40x2) (s₁ := S2097152x40x1) (s₂ := S2097152x40x1) (2 : Fin 3)
    (val_main_v50 (F := Ideal)) (val_main_v51 (F := Ideal) x0 x1)
    Facts₀.concatenates_S2097152x40x1_S2097152x40x1_S2097152x40x2_d2
    (ix3 (n0 := 2097152) (n1 := 40) (n2 := 2) r c 1) rfl rfl (ix3 (n0 := 2097152) (n1 := 40) (n2 := 1) r c 0)
    (fun b hb => match b, hb with
      | ⟨0, _⟩, _ => rfl
      | ⟨1, _⟩, _ => rfl
      | ⟨2, _⟩, hb => absurd rfl hb)
    rfl

/-- The first start component at `(r, c)` is the class `c` as a word: the negative-index wrap keeps it. -/
theorem ref_start0 (x0 x1 : Cert.Ghm.SBC.Idx → EReal) (r : Fin 2097152) (c : Fin 40) :
    val_main_v52 (F := Ideal) x0 x1 (pairIdx (ix2 r c) 0) = BitVec.ofNat 32 c.val := by
  have hp : pairIdx (ix2 r c) 0 = ix3 (n0 := 2097152) (n1 := 40) (n2 := 2) r c 0 := by
    funext a
    match a with
    | ⟨0, _⟩ => rfl
    | ⟨1, _⟩ => rfl
    | ⟨2, _⟩ => rfl
  rw [hp, v52_at0, val_main_v50_apply, val_main_v49_apply, val_main_v43_apply, val_main_v40_apply, val_main_v42_apply,
    val_main_v39_apply, val_main_c_11_apply, val_main_v38_apply, val_main_v37_apply]
  refine (wrapSelect_of_lt _ _ ?_).trans rfl
  show (BitVec.ofNat 32 c.val).toNat < 2147483648
  rw [BitVec.toNat_ofNat]; have := c.isLt; omega

/-- The second start component at `(r, c)` is the sample's bin word: the negative-index wrap keeps it. -/
theorem ref_start1 (x0 x1 : Cert.Ghm.SBC.Idx → EReal) (r : Fin 2097152) (c : Fin 40) :
    val_main_v52 (F := Ideal) x0 x1 (pairIdx (ix2 r c) 1) = Cert.Ghm.bin (x0 (ix2 r c)) (x1 (ix2 r c)) := by
  have hp : pairIdx (ix2 r c) 1 = ix3 (n0 := 2097152) (n1 := 40) (n2 := 2) r c 1 := by
    funext a
    match a with
    | ⟨0, _⟩ => rfl
    | ⟨1, _⟩ => rfl
    | ⟨2, _⟩ => rfl
  have hi : idx_main_v51 (ix3 (n0 := 2097152) (n1 := 40) (n2 := 1) r c 0) = ix2 r c := by
    funext a
    match a with
    | ⟨0, _⟩ => rfl
    | ⟨1, _⟩ => rfl
  rw [hp, v52_at1, val_main_v51_apply, hi, val_main_v48_apply, val_main_v45_apply, val_main_v47_apply, val_main_v44_apply,
    val_main_c_13_apply, ref_bin]
  refine wrapSelect_of_lt _ _ ?_
  have := Cert.Ghm.bin_lt (x0 (ix2 r c)) (x1 (ix2 r c)); omega

/-- The gathered stage is the gather of the new accumulator at the concatenated start indices. -/
theorem v53_eq (x0 x1 : Cert.Ghm.SBC.Idx → EReal) (x2 : Cert.Ghm.SCK.Idx → EReal) :
    val_main_v53 (F := Ideal) x0 x1 x2
      = Host.gather gather_S40x100_S2097152x40x2_S2097152x40_n_01_n_n_01_2_11 (val_main_v36 (F := Ideal) x0 x1 x2)
          (val_main_v52 (F := Ideal) x0 x1) := rfl

/-- The reference's gather dimension numbers are the two-component ones. -/
theorem gatherDims_eq : gather_S40x100_S2097152x40x2_S2097152x40_n_01_n_n_01_2_11
    = pairGatherDims 40 100 2097152 40 Facts₀.gather_S40x100_S2097152x40x2_S2097152x40_n_01_n_n_01_2_11_wf := rfl

/-- **The gathered element**: the new accumulator at the sample's own class and bin. -/
theorem ref_gathered (x0 x1 : Cert.Ghm.SBC.Idx → EReal) (x2 : Cert.Ghm.SCK.Idx → EReal) (r : Fin 2097152) (c : Fin 40) :
    val_main_v53 (F := Ideal) x0 x1 x2 (ix2 r c)
      = val_main_v36 (F := Ideal) x0 x1 x2 (ix2 c (Cert.Ghm.binIx (x0 (ix2 r c)) (x1 (ix2 r c)))) := by
  rw [v53_eq, gatherDims_eq, pairGather_apply (A := 40) (B := 100) (by decide) (by decide)]
  congr 1
  funext a
  match a with
  | ⟨0, _⟩ =>
    refine Fin.ext ?_
    show min (val_main_v52 (F := Ideal) x0 x1 (pairIdx (ix2 r c) 0)).toInt.toNat (40 - 1) = c.val
    rw [ref_start0, clampStart_of_lt _ 40 (by rw [BitVec.toNat_ofNat]; have := c.isLt; omega) (by decide), BitVec.toNat_ofNat]
    have := c.isLt; omega
  | ⟨1, _⟩ =>
    refine Fin.ext ?_
    show min (val_main_v52 (F := Ideal) x0 x1 (pairIdx (ix2 r c) 1)).toInt.toNat (100 - 1)
      = (Cert.Ghm.bin (x0 (ix2 r c)) (x1 (ix2 r c))).toNat
    rw [ref_start1, clampStart_of_lt _ 100 (Cert.Ghm.bin_lt _ _) (by decide)]

theorem ref_weights (x0 x1 : Cert.Ghm.SBC.Idx → EReal) (x2 : Cert.Ghm.SCK.Idx → EReal) :
    val_main_v55 (F := Ideal) x0 x1 x2 = Cert.Ghm.weightOut x0 x1 x2 := by
  funext i
  obtain ⟨r, c, rfl⟩ : ∃ (r : Fin 2097152) (c : Fin 40), i = ix2 r c := ⟨i 0, i 1, eq_ix2 i⟩
  rw [val_main_v55_apply, val_main_v54_apply, val_main_cst_15_apply, ref_gathered, ref_acc]
  rfl

end Cert.ReferenceIdeal.RefValue

end
-- ==== Proof.lean ====
/-
  The certificate of the gradient-harmonizing classification loss kernel against its jnp reference.

  Both programs compute, over the extended reals: the mean binary cross-entropy with logits; per (class, bin) the count of
  samples whose gradient magnitude |σ(p) − t| falls in the bin, and from it the momentum-updated accumulator; and per
  sample the batch size over its own bin's updated accumulator entry (Proof/Spec.lean). The kernel program gets there by
  two pipelined kernels over 256 row tiles — a histogram and loss accumulated across the grid (Proof/Hist*.lean), then a
  masked 100-term selection of each sample's accumulator entry (Proof/Weights*.lean) — with the accumulator update on
  the host between them (Proof/HostGlue.lean, Proof/KernelValue.lean); the reference by a scatter-add, a gather and a
  mean (Proof/Ref*.lean). The three frames are the generated frame proofs and the reference's run; the ideal pass
  rewrote nothing, so the idealization claim is trivial.
-/
import proofs.«148853_j13846974562932_2_alg».proof.Defs
import proofs.«148853_j13846974562932_2_alg».proof.Proof.Gen.Kernel
import proofs.«148853_j13846974562932_2_alg».proof.Proof.Gen.Kernel.Skeleton
import proofs.«148853_j13846974562932_2_alg».proof.Proof.Gen.Kernel.Launch
import proofs.«148853_j13846974562932_2_alg».proof.Proof.Gen.Kernel.Points
import proofs.«148853_j13846974562932_2_alg».proof.Proof.Gen.Kernel.Frame
import proofs.«148853_j13846974562932_2_alg».proof.Proof.Gen.KernelIdeal
import proofs.«148853_j13846974562932_2_alg».proof.Proof.Gen.KernelIdeal.Skeleton
import proofs.«148853_j13846974562932_2_alg».proof.Proof.Gen.KernelIdeal.Launch
import proofs.«148853_j13846974562932_2_alg».proof.Proof.Gen.KernelIdeal.Points
import proofs.«148853_j13846974562932_2_alg».proof.Proof.Gen.KernelIdeal.Frame
import proofs.«148853_j13846974562932_2_alg».proof.Proof.Gen.ReferenceIdeal
import proofs.«148853_j13846974562932_2_alg».proof.Proof.RefRunP
import proofs.«148853_j13846974562932_2_alg».proof.Proof.RefReadP
import proofs.«148853_j13846974562932_2_alg».proof.Proof.Gen.Pre_finite_inputs
import proofs.«148853_j13846974562932_2_alg».proof.Proof.KernelRun
import proofs.«148853_j13846974562932_2_alg».proof.Proof.KernelValue
import proofs.«148853_j13846974562932_2_alg».proof.Proof.KernelWeights
import proofs.«148853_j13846974562932_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the results dropped. -/
theorem frame_ri : Cert.frame_ReferenceIdeal := fun m ρ _ =>
  (θ_run Cert.ReferenceIdeal.defs _ _).mono (fun _ h c => (h c).2.2.2) (Cert.ReferenceIdeal.ValueP.run (F := Ideal) m ρ)

theorem preserves : Cert.preserves_Kernel_KernelIdeal := trivial

/-- Both programs' three results are the specification's loss, weights and new accumulator of the (agreeing) arguments. -/
theorem algebraic : Cert.algebraic_KernelIdeal_ReferenceIdeal := by
  intro m ρ m' ρ' _ hagree
  refine ⟨fun c => Cert.Ghm.lossOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.Ghm.weightOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.Ghm.accOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)), ?_, ?_⟩
  · refine (θ_run Cert.KernelIdeal.defs _ _).mono (fun r h c => ?_) (Cert.KernelIdeal.RunValues.run (F := Ideal) m ρ)
    obtain ⟨h1, h2, h3, h4, h5, h6⟩ := h c
    exact ⟨h1.trans (Cert.KernelIdeal.Value.loss_eq m ρ c), h2.trans (Cert.KernelIdeal.Value.weights_eq m ρ c),
      h3.trans (Cert.KernelIdeal.Value.acc_eq m ρ c), h4, h5, h6⟩
  · refine (θ_run Cert.ReferenceIdeal.defs _ _).mono (fun r h c => ?_) (Cert.ReferenceIdeal.ValueP.run (F := Ideal) m' ρ')
    obtain ⟨h1, h2, h3, h4, h5, h6⟩ := h c
    refine ⟨h1.trans ?_, h2.trans ?_, h3.trans ?_, h4, h5, h6⟩
    · rw [Cert.ReferenceIdeal.ReadP.val_main_v66_eq, (hagree c).1, (hagree c).2.1]
      exact Cert.ReferenceIdeal.RefValue.ref_loss _ _
    · rw [Cert.ReferenceIdeal.ReadP.val_main_v55_eq, (hagree c).1, (hagree c).2.1, (hagree c).2.2]
      exact Cert.ReferenceIdeal.RefValue.ref_weights _ _ _
    · rw [Cert.ReferenceIdeal.ReadP.val_main_v36_eq, (hagree c).1, (hagree c).2.1, (hagree c).2.2]
      exact Cert.ReferenceIdeal.RefValue.ref_acc _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
